-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S1600000x16 : Shape := ⟨2, ![1600000, 16]⟩
abbrev S64x16 : Shape := ⟨2, ![64, 16]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1x64 .f32) (main_arg17 : FVec F S1 .f32) (main_v63 : IVec S_ 1) (main_v67 : IVec S_ 1) : IVec S_ 1 :=
  let main_v68 : IVec S_ 1 := andi main_v63 main_v67
  let main_v69 : FVec F S1x64 .f32 := Host.absf main_arg16
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S64 .f32) (main_arg14 : FVec F S64x64 .f32) (main_arg15 : FVec F S64 .f32) (main_arg16 : FVec F S1x64 .f32) (main_arg17 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S64x16 .f32) (main_arg11 : FVec F S64 .f32) (main_arg12 : FVec F S64x64 .f32) (main_arg13 : FVec F S64 .f32) (main_arg14 : FVec F S64x64 .f32) (main_arg15 : FVec F S64 .f32) (main_arg16 : FVec F S1x64 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg10
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x16 .f32) (main_arg11 : FVec F S64 .f32) (main_arg12 : FVec F S64x64 .f32) (main_arg13 : FVec F S64 .f32) (main_arg14 : FVec F S64x64 .f32) (main_arg15 : FVec F S64 .f32) (main_arg16 : FVec F S1x64 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : IVec S100000 32) (main_arg3 : FVec F S1600000x16 .f32) (main_arg4 : FVec F S64x16 .f32) (main_arg5 : FVec F S64 .f32) (main_arg6 : FVec F S64x64 .f32) (main_arg7 : FVec F S64 .f32) (main_arg8 : FVec F S64x64 .f32) (main_arg9 : FVec F S64 .f32) (main_arg10 : FVec F S64x16 .f32) (main_arg11 : FVec F S64 .f32) (main_arg12 : FVec F S64x64 .f32) (main_arg13 : FVec F S64 .f32) (main_arg14 : FVec F S64x64 .f32) (main_arg15 : FVec F S64 .f32) (main_arg16 : FVec F S1x64 .f32) (main_arg17 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg3
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S64x16 .f32 := Host.absf main_arg4
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S1600000x16 : Shape := ⟨2, ![1600000, 16]⟩
abbrev S64x16 : Shape := ⟨2, ![64, 16]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S16x64 : Shape := ⟨2, ![16, 64]⟩
abbrev S8000x16 : Shape := ⟨2, ![8000, 16]⟩
abbrev S8000x64 : Shape := ⟨2, ![8000, 64]⟩
abbrev S5000x64 : Shape := ⟨2, ![5000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S64x1 : Shape := ⟨2, ![64, 1]⟩
abbrev S1x1 : Shape := ⟨2, ![1, 1]⟩

abbrev nBuf : Space → Nat
  | .hbm => 85
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S1600000x16, .f32⟩
  | .hbm, ⟨4, _⟩ => ⟨S64x16, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x16, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S16x64, .f32⟩
  | .hbm, ⟨32, _⟩ => ⟨S1x64, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S64x64, .f32⟩
  | .hbm, ⟨39, _⟩ => ⟨S64x64, .f32⟩
  | .hbm, ⟨40, _⟩ => ⟨S1x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S16x64, .f32⟩
  | .hbm, ⟨53, _⟩ => ⟨S1x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S64x64, .f32⟩
  | .hbm, ⟨60, _⟩ => ⟨S64x64, .f32⟩
  | .hbm, ⟨61, _⟩ => ⟨S1x64, .f32⟩
  | .hbm, ⟨62, _⟩ => ⟨S1x64, .f32⟩
  | .hbm, ⟨63, _⟩ => ⟨S100000x64, .f32⟩
  | .hbm, ⟨64, _⟩ => ⟨S_, .f32⟩
  | .hbm, ⟨65, _⟩ => ⟨S512x64, .f32⟩
  | .hbm, ⟨66, _⟩ => ⟨S100000x1, .i32⟩
  | .hbm, ⟨67, _⟩ => ⟨S512x64, .f32⟩
  | .hbm, ⟨68, _⟩ => ⟨S_, .f32⟩
  | .hbm, ⟨69, _⟩ => ⟨S100000, .f32⟩
  | .hbm, ⟨70, _⟩ => ⟨S_, .f32⟩
  | .hbm, ⟨71, _⟩ => ⟨S512, .f32⟩
  | .hbm, ⟨72, _⟩ => ⟨S100000x1, .i32⟩
  | .hbm, ⟨73, _⟩ => ⟨S512, .f32⟩
  | .hbm, ⟨74, _⟩ => ⟨S_, .f32⟩
  | .hbm, ⟨75, _⟩ => ⟨S512, .f32⟩
  | .hbm, ⟨76, _⟩ => ⟨S512, .f32⟩
  | .hbm, ⟨77, _⟩ => ⟨S512x1, .f32⟩
  | .hbm, ⟨78, _⟩ => ⟨S512x64, .f32⟩
  | .hbm, ⟨79, _⟩ => ⟨S512x64, .f32⟩
  | .hbm, ⟨80, _⟩ => ⟨S64x1, .f32⟩
  | .hbm, ⟨81, _⟩ => ⟨S512x1, .f32⟩
  | .hbm, ⟨82, _⟩ => ⟨S1x1, .f32⟩
  | .hbm, ⟨83, _⟩ => ⟨S512x1, .f32⟩
  | .hbm, ⟨84, _⟩ => ⟨S512x1, .f32⟩
  | .local _ .vmem, ⟨0, _⟩ => ⟨S8000x16, .f32⟩
  | .local _ .vmem, ⟨1, _⟩ => ⟨S8000x16, .f32⟩
  | .local _ .vmem, ⟨2, _⟩ => ⟨S8000x64, .f32⟩
  | .local _ .vmem, ⟨3, _⟩ => ⟨S8000x64, .f32⟩
  | .local _ .vmem, ⟨4, _⟩ => ⟨S16x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S8000x16, .f32⟩
  | .local _ .vmem, ⟨19, _⟩ => ⟨S8000x16, .f32⟩
  | .local _ .vmem, ⟨20, _⟩ => ⟨S8000x64, .f32⟩
  | .local _ .vmem, ⟨21, _⟩ => ⟨S8000x64, .f32⟩
  | .local _ .vmem, ⟨22, _⟩ => ⟨S16x64, .f32⟩
  | .local _ .vmem, ⟨23, _⟩ => ⟨S1x64, .f32⟩
  | .local _ .vmem, ⟨24, _⟩ => ⟨S8000x64, .f32⟩
  | .local _ .vmem, ⟨25, _⟩ => ⟨S8000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_1 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x16_S16x64_1_0 : S64x16.Transposes [1, 0] S16x64
  shapeCasts_S64_S1x64 : S64.ShapeCasts S1x64
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S1x64_S64x1_1_0 : S1x64.Transposes [1, 0] S64x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x64_S1600000x1_S1600000x64_1_0_n_n_0_1_164_wf : GatherDims.WF S100000x64 S1600000x1 S1600000x64 [1] [0] [] [0] [] 1 ![1, 64]
  dot_S8000x16_S16x64_S8000x64_1_0_0_1_n_n_wf : DotDims.WF S8000x16 S16x64 S8000x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S1600000x16.size a
  hwx0_0 : ∀ i : grid0.Coords, EltTy.bits .f32 = 32 ∨ (Rect.block (s := S1600000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S1600000x16.size a
  hwx2_0 : ∀ i : grid2.Coords, EltTy.bits .f32 = 32 ∨ (Rect.block (s := S1600000x16) S8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x64.size a ≤ S16x64.size a
  hwx2_2 : ∀ i : grid2.Coords, EltTy.bits .f32 = 32 ∨ (Rect.block (s := S16x64) S16x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x64.size a ≤ S1600000x64.size a
  hwx2_4 : ∀ i : grid2.Coords, EltTy.bits .f32 = 32 ∨ (Rect.block (s := S1600000x64) S8000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg3) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg3) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S16x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S8000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v21) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v39) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S1600000x16 : Shape := ⟨2, ![1600000, 16]⟩
abbrev S64x16 : Shape := ⟨2, ![64, 16]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S16x64 : Shape := ⟨2, ![16, 64]⟩
abbrev S1600000x64 : Shape := ⟨2, ![1600000, 64]⟩
abbrev S_ : Shape := ⟨0, ![]⟩
abbrev S1600000x1 : Shape := ⟨2, ![1600000, 1]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S64x1 : Shape := ⟨2, ![64, 1]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S1600000x16, .f32⟩
  | .hbm, ⟨4, _⟩ => ⟨S64x16, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x16, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S16x64, .f32⟩
  | .hbm, ⟨23, _⟩ => ⟨S1600000x64, .f32⟩
  | .hbm, ⟨24, _⟩ => ⟨S1x64, .f32⟩
  | .hbm, ⟨25, _⟩ => ⟨S1600000x64, .f32⟩
  | .hbm, ⟨26, _⟩ => ⟨S1600000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S64x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S16x64, .f32⟩
  | .hbm, ⟨59, _⟩ => ⟨S1600000x64, .f32⟩
  | .hbm, ⟨60, _⟩ => ⟨S1x64, .f32⟩
  | .hbm, ⟨61, _⟩ => ⟨S1600000x64, .f32⟩
  | .hbm, ⟨62, _⟩ => ⟨S1600000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S1600000x64, .f32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | .hbm, ⟨89, _⟩ => ⟨S64x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S512x64, .f32⟩
  | .hbm, ⟨96, _⟩ => ⟨S100000x1, .i32⟩
  | .hbm, ⟨97, _⟩ => ⟨S512x64, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S512, .f32⟩
  | .hbm, ⟨102, _⟩ => ⟨S100000x1, .i32⟩
  | .hbm, ⟨103, _⟩ => ⟨S512, .f32⟩
  | .hbm, ⟨104, _⟩ => ⟨S_, .f32⟩
  | .hbm, ⟨105, _⟩ => ⟨S512, .f32⟩
  | .hbm, ⟨106, _⟩ => ⟨S512, .f32⟩
  | .hbm, ⟨107, _⟩ => ⟨S512x1, .f32⟩
  | .hbm, ⟨108, _⟩ => ⟨S512x64, .f32⟩
  | .hbm, ⟨109, _⟩ => ⟨S512x64, .f32⟩
  | .hbm, ⟨110, _⟩ => ⟨S64x1, .f32⟩
  | .hbm, ⟨111, _⟩ => ⟨S512x1, .f32⟩
  | .hbm, ⟨112, _⟩ => ⟨S1x1, .f32⟩
  | .hbm, ⟨113, _⟩ => ⟨S512x1, .f32⟩
  | .hbm, ⟨114, _⟩ => ⟨S512x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call0_cst : Ref sig .tc := ⟨.hbm, 37, rfl⟩
abbrev main_call0_v0 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_cst : Ref sig .tc := ⟨.hbm, 50, rfl⟩
abbrev main_call1_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_1 : Ref sig .tc := ⟨.hbm, 63, rfl⟩
abbrev main_v38 : Ref sig .tc := ⟨.hbm, 64, rfl⟩
abbrev main_v39 : Ref sig .tc := ⟨.hbm, 65, rfl⟩
abbrev main_c_2 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call2_cst : Ref sig .tc := ⟨.hbm, 73, rfl⟩
abbrev main_call2_v0 : Ref sig .tc := ⟨.hbm, 74, rfl⟩
abbrev main_v46 : Ref sig .tc := ⟨.hbm, 75, rfl⟩
abbrev main_cst_3 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call3_cst : Ref sig .tc := ⟨.hbm, 86, rfl⟩
abbrev main_call3_v0 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_4 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_5 : Ref sig .tc := ⟨.hbm, 98, rfl⟩
abbrev main_v65 : Ref sig .tc := ⟨.hbm, 99, rfl⟩
abbrev main_cst_6 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_7 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x16_S16x64_1_0 : S64x16.Transposes [1, 0] S16x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  transposes_S64x64_S64x64_1_0 : S64x64.Transposes [1, 0] S64x64
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S1x64_S64x1_1_0 : S1x64.Transposes [1, 0] S64x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S1600000x16_S16x64_S1600000x64_1_0_0_1_n_n_wf : DotDims.WF S1600000x16 S16x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x1_S512x1_1_0_0_1_n_n_wf : DotDims.WF S512x64 S64x1 S512x1 [1] [0] [0] [1] [] []

variable [Facts₀]

def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.NamedRun.lean ====
/-
  The idealized kernel's run with its result NAMED. The program is nine segments — five stretches of host operations
  and four pipelined regions — and the contents of every unscoped buffer at the return are the fold of those segments
  from the launch memory. The launch over the segments ends with every unscoped buffer read against the final state;
  read at the result buffer this says the result array ends at the fold's value there, and read at the eighteen
  argument buffers that each ends as launched (no segment writes an argument).
-/
import proofs.«130035_j79439715107083_2_alg».proof.Proof.KernelIdealFrameP

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of the program terminates without a fault; the result array ends at the value the
    fold of the nine segments gives it, and every argument array ends as launched. -/
theorem run : θ_run defs (onTc (τ := τ) (main (F := F))) ⟨m, fun _ => 0, ρ⟩ (fun r => ∀ c : Dev nD,
      r.2.mem ((c.tc : Thread nD τ).loc main_v56) = W9 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v56 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.KernelIdeal.Named

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.Stages.lean ====
/-
  The two dense stages of one message-passing layer, as functions of whole arrays over the extended reals, index by
  index, for any number of rows R (a block of rows and the whole array are two instances).

  * The message stage: row e of the output is  max(xs e + (ea e · Wt + b), 0),  where ea e is the edge's 16 attributes,
    Wt a 16 × 64 matrix, b a row of 64 biases and xs e the source node's 64 features.
  * The node stage: row r of the output is  max((x r + agg r) · W1t + b1, 0) · W2t + b2,  two 64 × 64 matrices and two
    bias rows.

  Every entry of a stage's output depends on ONE row of its row-indexed operands, so a stage commutes with taking a block
  of consecutive rows (`edgeStage_rows`, `nodeStage_rows`): rows off … off + B − 1 of the stage of the whole arrays are the
  stage of those rows of the arrays.
-/
import Idealize.ShloMosaic.PureOps.Ideal
import Idealize.ShloMosaic.Lib.ValueIdx
import proofs.«130035_j79439715107083_2_alg».proof.Proof.LibMatProd

noncomputable section

namespace Cert.Gine

open Idealize.ShloMosaic Idealize.ShloMosaic.ValueIdx Cert.Gcn.Dense

/-- The f32 zero word, kept as a word: both programs clamp against the same one, so it is never evaluated. -/
abbrev zero32 : EReal := Ideal.ofBits .f32 0x00000000#32

/-- The message stage: entry (e, q) is max(xs (e, q) + (Σ_k ea (e, k) · wT (k, q) + b (0, q)), 0). -/
def edgeStage {R : Nat} (ea : (⟨2, ![R, 16]⟩ : Shape).Idx → EReal) (xs : (⟨2, ![R, 64]⟩ : Shape).Idx → EReal)
    (wT : (⟨2, ![16, 64]⟩ : Shape).Idx → EReal) (b : (⟨2, ![1, 64]⟩ : Shape).Idx → EReal) :
    (⟨2, ![R, 64]⟩ : Shape).Idx → EReal :=
  fun i => max (xs i + (prod ea wT i + b (ix2 0 (i 1)))) zero32

/-- The hidden layer of the node stage: entry (r, q) is max(Σ_k (x (r, k) + agg (r, k)) · w1T (k, q) + b1 (0, q), 0). -/
def hidden {R : Nat} (x agg : (⟨2, ![R, 64]⟩ : Shape).Idx → EReal)
    (w1T : (⟨2, ![64, 64]⟩ : Shape).Idx → EReal) (b1 : (⟨2, ![1, 64]⟩ : Shape).Idx → EReal) :
    (⟨2, ![R, 64]⟩ : Shape).Idx → EReal :=
  fun i => max (prod (fun j => x j + agg j) w1T i + b1 (ix2 0 (i 1))) zero32

/-- The node stage: entry (r, q) is Σ_k hidden (r, k) · w2T (k, q) + b2 (0, q). -/
def nodeStage {R : Nat} (x agg : (⟨2, ![R, 64]⟩ : Shape).Idx → EReal)
    (w1T : (⟨2, ![64, 64]⟩ : Shape).Idx → EReal) (b1 : (⟨2, ![1, 64]⟩ : Shape).Idx → EReal)
    (w2T : (⟨2, ![64, 64]⟩ : Shape).Idx → EReal) (b2 : (⟨2, ![1, 64]⟩ : Shape).Idx → EReal) :
    (⟨2, ![R, 64]⟩ : Shape).Idx → EReal :=
  fun i => prod (hidden x agg w1T b1) w2T i + b2 (ix2 0 (i 1))

/-- Rows off … off + B − 1 of an array of R rows and n columns, as an array of B rows. -/
def rowsFrom {R B n : Nat} (off : Nat) (h : off + B ≤ R) (a : (⟨2, ![R, n]⟩ : Shape).Idx → EReal) :
    (⟨2, ![B, n]⟩ : Shape).Idx → EReal :=
  fun j => a (ix2 (⟨off + (j 0).val, by have := idx2_lt0 j; omega⟩ : Fin R) (⟨(j 1).val, idx2_lt1 j⟩ : Fin n))

/-- The message stage commutes with taking a block of rows. -/
theorem edgeStage_rows {R B : Nat} (off : Nat) (h : off + B ≤ R) (ea : (⟨2, ![R, 16]⟩ : Shape).Idx → EReal)
    (xs : (⟨2, ![R, 64]⟩ : Shape).Idx → EReal) (wT : (⟨2, ![16, 64]⟩ : Shape).Idx → EReal)
    (b : (⟨2, ![1, 64]⟩ : Shape).Idx → EReal) :
    rowsFrom off h (edgeStage ea xs wT b) = edgeStage (rowsFrom off h ea) (rowsFrom off h xs) wT b := by
  funext j
  rfl

/-- The node stage commutes with taking a block of rows. -/
theorem nodeStage_rows {R B : Nat} (off : Nat) (h : off + B ≤ R) (x agg : (⟨2, ![R, 64]⟩ : Shape).Idx → EReal)
    (w1T : (⟨2, ![64, 64]⟩ : Shape).Idx → EReal) (b1 : (⟨2, ![1, 64]⟩ : Shape).Idx → EReal)
    (w2T : (⟨2, ![64, 64]⟩ : Shape).Idx → EReal) (b2 : (⟨2, ![1, 64]⟩ : Shape).Idx → EReal) :
    rowsFrom off h (nodeStage x agg w1T b1 w2T b2) = nodeStage (rowsFrom off h x) (rowsFrom off h agg) w1T b1 w2T b2 := by
  funext j
  rfl

end Cert.Gine

end
-- ==== Proof.Payloads.lean ====
/-
  What each region's body stores, as a stage of the blocks it loads (at the ideal instance, where a change of float
  format is the identity and a matrix unit's product into a zero accumulator is the plain sum over the contracted
  axis): the two edge bodies store the message stage of their four blocks, the two node bodies the node stage of their
  six. The bias block is one row, broadcast down the rows: entry (r, q) of the broadcast is entry (0, q) of the row.
-/
import proofs.«130035_j79439715107083_2_alg».proof.Proof.Gen.KernelIdeal.Skeleton
import proofs.«130035_j79439715107083_2_alg».proof.Proof.Stages
import Idealize.ShloMosaic.Lib.Pipeline.Value
import Idealize.ShloMosaic.Lib.ValueIdx
import Idealize.ShloMosaic.PureOps.Ideal.Laws

noncomputable section

namespace Cert.Gine

open Idealize.ShloMosaic Idealize.ShloMosaic.ValueIdx Cert.Gcn.Dense Cert.KernelIdeal Cert.KernelIdeal.Gen

/-- A row broadcast down R rows, read at (r, q): the row's entry (0, q). -/
theorem rowBroadcast_apply {α : Type} {R n : Nat} (v : (⟨2, ![1, n]⟩ : Shape).Idx → α)
    (h : (⟨2, ![1, n]⟩ : Shape).Broadcasts ⟨2, ![R, n]⟩) (i : (⟨2, ![R, n]⟩ : Shape).Idx) :
    broadcastTo ⟨2, ![R, n]⟩ v h i = v (ix2 (0 : Fin 1) (i 1 : Fin n)) :=
  broadcastTo_apply v h i (ix2 (0 : Fin 1) (i 1 : Fin n)) (by
    intro a
    match a with
    | ⟨0, _⟩ => rfl
    | ⟨1, _⟩ =>
      show (i 1).val = if n = 1 then 0 else (i 1).val
      split
      · have := (i 1).isLt; have e : (i 1).val < n := this; omega
      · rfl)

/-- The edge bodies' matrix product (an 8000 × 16 block by the 16 × 64 transposed weight, into a zero accumulator), entry by
    entry: the sum over the 16 attributes. -/
theorem edgeDot {φ₁ φ₂ : FTy} (x : FVec Ideal S8000x16 φ₁) (w : FVec Ideal S16x64 φ₂) (i : S8000x64.Idx) :
    matmul dot_S8000x16_S16x64_S8000x64_1_0_0_1_n_n none x w (constant S8000x64 .f32 0x00000000#32) i
      = prod (x : S8000x16.Idx → EReal) (w : S16x64.Idx → EReal) i := by
  refine (Ideal.matmul_constant_zero_apply _ _ x w i).trans ?_
  exact sum_contr_eq_prod dot_S8000x16_S16x64_S8000x64_1_0_0_1_n_n rfl rfl
    (fun i q => by
      unfold DotDims.lhsIdx
      rw [dif_neg (show ¬(0 : Fin S8000x16.rank) ∈ dot_S8000x16_S16x64_S8000x64_1_0_0_1_n_n.lhsBatch by decide), dif_pos (show (0 : Fin S8000x16.rank) ∈ dot_S8000x16_S16x64_S8000x64_1_0_0_1_n_n.lhsNonContracting by decide)]
      rfl)
    (fun i q => dot_S8000x16_S16x64_S8000x64_1_0_0_1_n_n.lhsIdx_val_of_single rfl i q)
    (fun i q => dot_S8000x16_S16x64_S8000x64_1_0_0_1_n_n.rhsIdx_val_of_single rfl i q)
    (fun i q => by
      unfold DotDims.rhsIdx
      rw [dif_neg (show ¬(1 : Fin S16x64.rank) ∈ dot_S8000x16_S16x64_S8000x64_1_0_0_1_n_n.rhsBatch by decide), dif_pos (show (1 : Fin S16x64.rank) ∈ dot_S8000x16_S16x64_S8000x64_1_0_0_1_n_n.rhsNonContracting by decide)]
      rfl)
    x w i

/-- The node bodies' matrix products (a 5000 × 64 block by a 64 × 64 transposed weight, into a zero accumulator), entry by
    entry: the sum over the 64 features. -/
theorem nodeDot {φ₁ φ₂ : FTy} (x : FVec Ideal S5000x64 φ₁) (w : FVec Ideal S64x64 φ₂) (i : S5000x64.Idx) :
    matmul dot_S5000x64_S64x64_S5000x64_1_0_0_1_n_n none x w (constant S5000x64 .f32 0x00000000#32) i
      = prod (x : S5000x64.Idx → EReal) (w : S64x64.Idx → EReal) i := by
  refine (Ideal.matmul_constant_zero_apply _ _ x w i).trans ?_
  exact sum_contr_eq_prod dot_S5000x64_S64x64_S5000x64_1_0_0_1_n_n rfl rfl
    (fun i q => by
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl)
    (fun i q => dot_S5000x64_S64x64_S5000x64_1_0_0_1_n_n.lhsIdx_val_of_single rfl i q)
    (fun i q => dot_S5000x64_S64x64_S5000x64_1_0_0_1_n_n.rhsIdx_val_of_single rfl i q)
    (fun i q => by
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
    x w i

/-- Region 0's body stores the message stage of the blocks it loads. -/
theorem pay0_eq (v0 : Vec Ideal S8000x16 .f32) (v2 : Vec Ideal S16x64 .f32) (v6 : Vec Ideal S1x64 .f32) (v10 : Vec Ideal S8000x64 .f32) :
    k0_pay1 (F := Ideal) v0 v2 v6 v10 = edgeStage v0 v10 v2 v6 := by
  funext i
  unfold k0_pay1 edgeStage
  simp only [shapeCast_self]
  rw [maximumf_apply, addf_apply, addf_apply, edgeDot, rowBroadcast_apply]
  rfl

/-- Region 1's body stores the node stage of the blocks it loads. -/
theorem pay1_eq (v0 v1 : Vec Ideal S5000x64 .f32) (v5 : Vec Ideal S64x64 .f32) (v9 : Vec Ideal S1x64 .f32)
    (v16 : Vec Ideal S64x64 .f32) (v20 : Vec Ideal S1x64 .f32) :
    k1_pay1 (F := Ideal) v0 v1 v5 v9 v16 v20 = nodeStage v0 v1 v5 v9 v16 v20 := by
  funext i
  unfold k1_pay1 nodeStage
  simp only [shapeCast_self]
  rw [addf_apply, nodeDot, rowBroadcast_apply]
  refine congrArg (· + _) ?_
  unfold prod
  refine Finset.sum_congr rfl fun k _ => congrArg (· * _) ?_
  unfold hidden
  rw [truncf_apply, maximumf_apply, addf_apply, nodeDot, rowBroadcast_apply]
  rfl

/-- Region 2's body stores the message stage of the blocks it loads. -/
theorem pay2_eq (v0 : Vec Ideal S8000x16 .f32) (v2 : Vec Ideal S16x64 .f32) (v6 : Vec Ideal S1x64 .f32) (v10 : Vec Ideal S8000x64 .f32) :
    k2_pay1 (F := Ideal) v0 v2 v6 v10 = edgeStage v0 v10 v2 v6 := by
  funext i
  unfold k2_pay1 edgeStage
  simp only [shapeCast_self]
  rw [maximumf_apply, addf_apply, addf_apply, edgeDot, rowBroadcast_apply]
  rfl

/-- Region 3's body stores the node stage of the blocks it loads. -/
theorem pay3_eq (v0 v1 : Vec Ideal S5000x64 .f32) (v5 : Vec Ideal S64x64 .f32) (v9 : Vec Ideal S1x64 .f32)
    (v16 : Vec Ideal S64x64 .f32) (v20 : Vec Ideal S1x64 .f32) :
    k3_pay1 (F := Ideal) v0 v1 v5 v9 v16 v20 = nodeStage v0 v1 v5 v9 v16 v20 := by
  funext i
  unfold k3_pay1 nodeStage
  simp only [shapeCast_self]
  rw [addf_apply, nodeDot, rowBroadcast_apply]
  refine congrArg (· + _) ?_
  unfold prod
  refine Finset.sum_congr rfl fun k _ => congrArg (· * _) ?_
  unfold hidden
  rw [truncf_apply, maximumf_apply, addf_apply, nodeDot, rowBroadcast_apply]
  rfl

end Cert.Gine

end
-- ==== Proof.Edge0.lean ====
/-
  Region 0 (an edge stage over 200 blocks of 8000 edges), at ANY contents V of the core's buffers when the region is
  entered: the array the region leaves at its output is the message stage of the four arrays it reads.

  Block t of the attribute array and of the gathered-features array is rows 8000 t … 8000 t + 7999; the transposed
  weight and the bias row are one block each, the same at every point. What point t writes back is the message stage of
  its four blocks, which is rows 8000 t … of the stage of the whole arrays (a stage commutes with taking a block of
  rows); the 200 written blocks tile the 1600000 rows, row r lying in block r / 8000.
-/
import proofs.«130035_j79439715107083_2_alg».proof.Proof.KernelIdealFrameP
import proofs.«130035_j79439715107083_2_alg».proof.Proof.Payloads
import Idealize.ShloMosaic.Lib.Pipeline.Value

set_option maxRecDepth 16384

noncomputable section

namespace Cert.KernelIdeal.Edge0

open Cert.KernelIdeal Cert.KernelIdeal.Gen Cert.Gine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store is the message stage of the four loaded blocks. -/
theorem out_eq (x0 : Vec Ideal S8000x16 .f32) (x1 : Vec Ideal S8000x64 .f32) (x2 : Vec Ideal S16x64 .f32) (x3 : Vec Ideal S1x64 .f32) :
    out0_4 (F := Ideal) x0 x1 x2 x3 = edgeStage x0 x1 x2 x3 := by
  unfold out0_4
  rw [View.canon_unit_zero hz]
  simp only [View.ld_unit_zero (S := S8000x16) hz, View.ld_unit_zero (S := S16x64) hz, View.ld_unit_zero (S := S1x64) hz,
    View.ld_unit_zero (S := S8000x64) hz]
  exact pay0_eq _ _ _ _

/-- The printed index maps, decided over the 200 points: the row-blocked windows sit at block (t, 0), the two
    whole-array windows at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem rows_le (t : Fin cfg0.N) : 8000 * t.val + 8000 ≤ 1600000 := by
  have h : t.val < 200 := Nat.lt_of_lt_of_eq t.isLt N_0
  omega

/-- Block t of the attribute array is its rows 8000 t …. -/
theorem blk0_eq (c : Dev nD) (t : Fin cfg0.N) :
    (iblk0 V c 0 t : S8000x16.Idx → EReal) = rowsFrom (8000 * t.val) (rows_le t) (V c main_arg3 : S1600000x16.Idx → EReal) := by
  obtain ⟨e0, e1, -⟩ := idx_facts t
  funext y
  unfold iblk0 rowsFrom
  rw [View.read_apply]
  show V c main_arg3 _ = V c main_arg3 _
  congr 1
  funext a; apply Fin.ext
  match a with
  | ⟨0, _⟩ => show win0_0.index t (0 : Fin 2) * 8000 + 1 * (y 0).val = 8000 * t.val + (y 0).val; rw [e0]; omega
  | ⟨1, _⟩ => show win0_0.index t (1 : Fin 2) * 16 + 1 * (y 1).val = (y 1).val; rw [e1]; omega

/-- Block t of the gathered-features array is its rows 8000 t …. -/
theorem blk1_eq (c : Dev nD) (t : Fin cfg0.N) :
    (iblk0 V c 1 t : S8000x64.Idx → EReal) = rowsFrom (8000 * t.val) (rows_le t) (V c main_v10 : S1600000x64.Idx → EReal) := by
  obtain ⟨-, -, e0, e1, -⟩ := idx_facts t
  funext y
  unfold iblk0 rowsFrom
  rw [View.read_apply]
  show V c main_v10 _ = V c main_v10 _
  congr 1
  funext a; apply Fin.ext
  match a with
  | ⟨0, _⟩ => show win0_1.index t (0 : Fin 2) * 8000 + 1 * (y 0).val = 8000 * t.val + (y 0).val; rw [e0]; omega
  | ⟨1, _⟩ => show win0_1.index t (1 : Fin 2) * 64 + 1 * (y 1).val = (y 1).val; rw [e1]; omega

/-- The transposed weight's one block is the whole array. -/
theorem blk2_eq (c : Dev nD) (t : Fin cfg0.N) : (iblk0 V c 2 t : S16x64.Idx → EReal) = (V c main_v11 : S16x64.Idx → EReal) := by
  obtain ⟨-, -, -, -, e0, e1, -⟩ := idx_facts t
  funext y
  unfold iblk0
  rw [View.read_apply]
  show V c main_v11 _ = V c main_v11 _
  congr 1
  funext a; apply Fin.ext
  match a with
  | ⟨0, _⟩ => show win0_2.index t (0 : Fin 2) * 16 + 1 * (y 0).val = (y 0).val; rw [e0]; omega
  | ⟨1, _⟩ => show win0_2.index t (1 : Fin 2) * 64 + 1 * (y 1).val = (y 1).val; rw [e1]; omega

/-- The bias row's one block is the whole row. -/
theorem blk3_eq (c : Dev nD) (t : Fin cfg0.N) : (iblk0 V c 3 t : S1x64.Idx → EReal) = (V c main_v12 : S1x64.Idx → EReal) := by
  obtain ⟨-, -, -, -, -, -, e0, e1, -⟩ := idx_facts t
  funext y
  unfold iblk0
  rw [View.read_apply]
  show V c main_v12 _ = V c main_v12 _
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The message stage of the four arrays the region reads. -/
abbrev result (c : Dev nD) : S1600000x64.Idx → EReal :=
  edgeStage (V c main_arg3 : S1600000x16.Idx → EReal) (V c main_v10 : S1600000x64.Idx → EReal) (V c main_v11 : S16x64.Idx → EReal) (V c main_v12 : S1x64.Idx → EReal)

/-- What point t writes back is block t of the stage of the whole arrays. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4, out_eq, blk0_eq, blk1_eq, blk2_eq, blk3_eq, ← edgeStage_rows]
  obtain ⟨-, -, -, -, -, -, -, -, e0, e1⟩ := idx_facts t
  funext y
  rw [View.read_apply]
  unfold rowsFrom
  show result V c _ = result V c _
  congr 1
  funext a; apply Fin.ext
  match a with
  | ⟨0, _⟩ => show 8000 * t.val + (y 0).val = win0_4.index t (0 : Fin 2) * 8000 + 1 * (y 0).val; rw [e0]; omega
  | ⟨1, _⟩ => show (y 1).val = win0_4.index t (1 : Fin 2) * 64 + 1 * (y 1).val; rw [e1]; omega

/-- An index of the output array is in point t's block iff each coordinate is in the block's range on its axis. -/
theorem mem_blk (t : Fin cfg0.N) (i : S1600000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v13).slice (win0_4.rect t)).set ↔ _
  rw [View.set_slice_whole, Rect.mem_set_unit]
  exact Iff.rfl

/-- THE ARRAY the region leaves at its output: the message stage of the four arrays it reads. -/
theorem final (c : Dev nD) : (dat0 V c).arrAt 4 cfg0.N = result V c :=
  (dat0 V c).arrAt_eq_of_cover 4 (result V c) (fun t _ => flushed_eq V c t) fun i => by
    have hi0 : ((i : S1600000x64.Idx) 0).val < 1600000 := (i 0).isLt
    have hi1 : ((i : S1600000x64.Idx) 1).val < 64 := (i 1).isLt
    have hN : cfg0.N = 200 := N_0
    refine ⟨⟨((i : S1600000x64.Idx) 0).val / 8000, by rw [hN]; omega⟩, flush0_4 _, ?_⟩
    obtain ⟨-, -, -, -, -, -, -, -, e0, e1⟩ := idx_facts ⟨((i : S1600000x64.Idx) 0).val / 8000, by rw [hN]; omega⟩
    rw [mem_blk]
    intro a
    match a with
    | ⟨0, _⟩ => show win0_4.index _ (0 : Fin 2) * 8000 ≤ (i 0).val ∧ (i 0).val < win0_4.index _ (0 : Fin 2) * 8000 + 8000; rw [e0]; dsimp only; omega
    | ⟨1, _⟩ => show win0_4.index _ (1 : Fin 2) * 64 ≤ (i 1).val ∧ (i 1).val < win0_4.index _ (1 : Fin 2) * 64 + 64; rw [e1]; omega

end Cert.KernelIdeal.Edge0

end
-- ==== Proof.Node1.lean ====
/-
  Region 1 (a node stage over 20 blocks of 5000 nodes), at ANY contents V of the core's buffers when the region is
  entered: the array the region leaves at its output is the node stage of the six arrays it reads.

  Block t of the node-feature array and of the aggregated-messages array is rows 5000 t … 5000 t + 4999; the two
  transposed weights and the two bias rows are one block each, the same at every point. What point t writes back is the
  node stage of its six blocks, which is rows 5000 t … of the stage of the whole arrays; the 20 written blocks tile the
  100000 rows, row r lying in block r / 5000.
-/
import proofs.«130035_j79439715107083_2_alg».proof.Proof.KernelIdealFrameP
import proofs.«130035_j79439715107083_2_alg».proof.Proof.Payloads
import Idealize.ShloMosaic.Lib.Pipeline.Value

set_option maxRecDepth 16384

noncomputable section

namespace Cert.KernelIdeal.Node1

open Cert.KernelIdeal Cert.KernelIdeal.Gen Cert.Gine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store is the node stage of the six loaded blocks. -/
theorem out_eq (x0 x1 : Vec Ideal S5000x64 .f32) (x2 : Vec Ideal S64x64 .f32) (x3 : Vec Ideal S1x64 .f32)
    (x4 : Vec Ideal S64x64 .f32) (x5 : Vec Ideal S1x64 .f32) :
    out1_6 (F := Ideal) x0 x1 x2 x3 x4 x5 = nodeStage x0 x1 x2 x3 x4 x5 := by
  unfold out1_6
  rw [View.canon_unit_zero hz]
  simp only [View.ld_unit_zero (S := S5000x64) hz, View.ld_unit_zero (S := S64x64) hz, View.ld_unit_zero (S := S1x64) hz]
  exact pay1_eq _ _ _ _ _ _

/-- The printed index maps, decided over the 20 points: the row-blocked windows sit at block (t, 0), the four
    whole-array windows at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem rows_le (t : Fin cfg1.N) : 5000 * t.val + 5000 ≤ 100000 := by
  have h : t.val < 20 := Nat.lt_of_lt_of_eq t.isLt N_1
  omega

/-- A row-blocked window's block t is rows 5000 t … of its array. -/
theorem blk0_eq (c : Dev nD) (t : Fin cfg1.N) :
    (iblk1 V c 0 t : S5000x64.Idx → EReal) = rowsFrom (5000 * t.val) (rows_le t) (V c main_arg0 : S100000x64.Idx → EReal) := by
  obtain ⟨e0, e1, -⟩ := idx_facts t
  funext y
  unfold iblk1 rowsFrom
  rw [View.read_apply]
  show V c main_arg0 _ = V c main_arg0 _
  congr 1
  funext a; apply Fin.ext
  match a with
  | ⟨0, _⟩ => show win1_0.index t (0 : Fin 2) * 5000 + 1 * (y 0).val = 5000 * t.val + (y 0).val; rw [e0]; omega
  | ⟨1, _⟩ => show win1_0.index t (1 : Fin 2) * 64 + 1 * (y 1).val = (y 1).val; rw [e1]; omega

theorem blk1_eq (c : Dev nD) (t : Fin cfg1.N) :
    (iblk1 V c 1 t : S5000x64.Idx → EReal) = rowsFrom (5000 * t.val) (rows_le t) (V c main_v16 : S100000x64.Idx → EReal) := by
  obtain ⟨-, -, e0, e1, -⟩ := idx_facts t
  funext y
  unfold iblk1 rowsFrom
  rw [View.read_apply]
  show V c main_v16 _ = V c main_v16 _
  congr 1
  funext a; apply Fin.ext
  match a with
  | ⟨0, _⟩ => show win1_1.index t (0 : Fin 2) * 5000 + 1 * (y 0).val = 5000 * t.val + (y 0).val; rw [e0]; omega
  | ⟨1, _⟩ => show win1_1.index t (1 : Fin 2) * 64 + 1 * (y 1).val = (y 1).val; rw [e1]; omega

/-- A transposed weight's one block is the whole array. -/
theorem blk2_eq (c : Dev nD) (t : Fin cfg1.N) : (iblk1 V c 2 t : S64x64.Idx → EReal) = (V c main_v17 : S64x64.Idx → EReal) := by
  obtain ⟨-, -, -, -, e0, e1, -⟩ := idx_facts t
  funext y
  unfold iblk1
  rw [View.read_apply]
  show V c main_v17 _ = V c main_v17 _
  congr 1
  funext a; apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- A bias row's one block is the whole row. -/
theorem blk3_eq (c : Dev nD) (t : Fin cfg1.N) : (iblk1 V c 3 t : S1x64.Idx → EReal) = (V c main_v19 : S1x64.Idx → EReal) := by
  obtain ⟨-, -, -, -, -, -, e0, e1, -⟩ := idx_facts t
  funext y
  unfold iblk1
  rw [View.read_apply]
  show V c main_v19 _ = V c main_v19 _
  congr 1
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

theorem blk4_eq (c : Dev nD) (t : Fin cfg1.N) : (iblk1 V c 4 t : S64x64.Idx → EReal) = (V c main_v18 : S64x64.Idx → EReal) := by
  obtain ⟨-, -, -, -, -, -, -, -, e0, e1, -⟩ := idx_facts t
  funext y
  unfold iblk1
  rw [View.read_apply]
  show V c main_v18 _ = V c main_v18 _
  congr 1
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

theorem blk5_eq (c : Dev nD) (t : Fin cfg1.N) : (iblk1 V c 5 t : S1x64.Idx → EReal) = (V c main_v20 : S1x64.Idx → EReal) := by
  obtain ⟨-, -, -, -, -, -, -, -, -, -, e0, e1, -⟩ := idx_facts t
  funext y
  unfold iblk1
  rw [View.read_apply]
  show V c main_v20 _ = V c main_v20 _
  congr 1
  funext a; apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- The node stage of the six arrays the region reads. -/
abbrev result (c : Dev nD) : S100000x64.Idx → EReal :=
  nodeStage (V c main_arg0 : S100000x64.Idx → EReal) (V c main_v16 : S100000x64.Idx → EReal) (V c main_v17 : S64x64.Idx → EReal)
    (V c main_v19 : S1x64.Idx → EReal) (V c main_v18 : S64x64.Idx → EReal) (V c main_v20 : S1x64.Idx → EReal)

/-- What point t writes back is block t of the stage of the whole arrays. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6, out_eq, blk0_eq, blk1_eq, blk2_eq, blk3_eq, blk4_eq, blk5_eq, ← nodeStage_rows]
  obtain ⟨-, -, -, -, -, -, -, -, -, -, -, -, e0, e1⟩ := idx_facts t
  funext y
  rw [View.read_apply]
  unfold rowsFrom
  show result V c _ = result V c _
  congr 1
  funext a; apply Fin.ext
  match a with
  | ⟨0, _⟩ => show 5000 * t.val + (y 0).val = win1_6.index t (0 : Fin 2) * 5000 + 1 * (y 0).val; rw [e0]; omega
  | ⟨1, _⟩ => show (y 1).val = win1_6.index t (1 : Fin 2) * 64 + 1 * (y 1).val; rw [e1]; omega

/-- An index of the output array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v21).slice (win1_6.rect t)).set ↔ _
  rw [View.set_slice_whole, Rect.mem_set_unit]
  exact Iff.rfl

/-- THE ARRAY the region leaves at its output: the node stage of the six arrays it reads. -/
theorem final (c : Dev nD) : (dat1 V c).arrAt 6 cfg1.N = result V c :=
  (dat1 V c).arrAt_eq_of_cover 6 (result V c) (fun t _ => flushed_eq V c t) fun i => by
    have hi0 : ((i : S100000x64.Idx) 0).val < 100000 := (i 0).isLt
    have hi1 : ((i : S100000x64.Idx) 1).val < 64 := (i 1).isLt
    have hN : cfg1.N = 20 := N_1
    refine ⟨⟨((i : S100000x64.Idx) 0).val / 5000, by rw [hN]; omega⟩, flush1_6 _, ?_⟩
    obtain ⟨-, -, -, -, -, -, -, -, -, -, -, -, e0, e1⟩ := idx_facts ⟨((i : S100000x64.Idx) 0).val / 5000, by rw [hN]; omega⟩
    rw [mem_blk]
    intro a
    match a with
    | ⟨0, _⟩ => show win1_6.index _ (0 : Fin 2) * 5000 ≤ (i 0).val ∧ (i 0).val < win1_6.index _ (0 : Fin 2) * 5000 + 5000; rw [e0]; dsimp only; omega
    | ⟨1, _⟩ => show win1_6.index _ (1 : Fin 2) * 64 ≤ (i 1).val ∧ (i 1).val < win1_6.index _ (1 : Fin 2) * 64 + 64; rw [e1]; omega

end Cert.KernelIdeal.Node1

end
-- ==== Proof.Edge2.lean ====
/-
  Region 2 (an edge stage over 200 blocks of 8000 edges), at ANY contents V of the core's buffers when the region is
  entered: the array the region leaves at its output is the message stage of the four arrays it reads.

  Block t of the attribute array and of the gathered-features array is rows 8000 t … 8000 t + 7999; the transposed
  weight and the bias row are one block each, the same at every point. What point t writes back is the message stage of
  its four blocks, which is rows 8000 t … of the stage of the whole arrays (a stage commutes with taking a block of
  rows); the 200 written blocks tile the 1600000 rows, row r lying in block r / 8000.
-/
import proofs.«130035_j79439715107083_2_alg».proof.Proof.KernelIdealFrameP
import proofs.«130035_j79439715107083_2_alg».proof.Proof.Payloads
import Idealize.ShloMosaic.Lib.Pipeline.Value

set_option maxRecDepth 16384

noncomputable section

namespace Cert.KernelIdeal.Edge2

open Cert.KernelIdeal Cert.KernelIdeal.Gen Cert.Gine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store is the message stage of the four loaded blocks. -/
theorem out_eq (x0 : Vec Ideal S8000x16 .f32) (x1 : Vec Ideal S8000x64 .f32) (x2 : Vec Ideal S16x64 .f32) (x3 : Vec Ideal S1x64 .f32) :
    out2_4 (F := Ideal) x0 x1 x2 x3 = edgeStage x0 x1 x2 x3 := by
  unfold out2_4
  rw [View.canon_unit_zero hz]
  simp only [View.ld_unit_zero (S := S8000x16) hz, View.ld_unit_zero (S := S16x64) hz, View.ld_unit_zero (S := S1x64) hz,
    View.ld_unit_zero (S := S8000x64) hz]
  exact pay2_eq _ _ _ _

/-- The printed index maps, decided over the 200 points: the row-blocked windows sit at block (t, 0), the two
    whole-array windows at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem rows_le (t : Fin cfg2.N) : 8000 * t.val + 8000 ≤ 1600000 := by
  have h : t.val < 200 := Nat.lt_of_lt_of_eq t.isLt N_2
  omega

/-- Block t of the attribute array is its rows 8000 t …. -/
theorem blk0_eq (c : Dev nD) (t : Fin cfg2.N) :
    (iblk2 V c 0 t : S8000x16.Idx → EReal) = rowsFrom (8000 * t.val) (rows_le t) (V c main_arg3 : S1600000x16.Idx → EReal) := by
  obtain ⟨e0, e1, -⟩ := idx_facts t
  funext y
  unfold iblk2 rowsFrom
  rw [View.read_apply]
  show V c main_arg3 _ = V c main_arg3 _
  congr 1
  funext a; apply Fin.ext
  match a with
  | ⟨0, _⟩ => show win2_0.index t (0 : Fin 2) * 8000 + 1 * (y 0).val = 8000 * t.val + (y 0).val; rw [e0]; omega
  | ⟨1, _⟩ => show win2_0.index t (1 : Fin 2) * 16 + 1 * (y 1).val = (y 1).val; rw [e1]; omega

/-- Block t of the gathered-features array is its rows 8000 t …. -/
theorem blk1_eq (c : Dev nD) (t : Fin cfg2.N) :
    (iblk2 V c 1 t : S8000x64.Idx → EReal) = rowsFrom (8000 * t.val) (rows_le t) (V c main_v28 : S1600000x64.Idx → EReal) := by
  obtain ⟨-, -, e0, e1, -⟩ := idx_facts t
  funext y
  unfold iblk2 rowsFrom
  rw [View.read_apply]
  show V c main_v28 _ = V c main_v28 _
  congr 1
  funext a; apply Fin.ext
  match a with
  | ⟨0, _⟩ => show win2_1.index t (0 : Fin 2) * 8000 + 1 * (y 0).val = 8000 * t.val + (y 0).val; rw [e0]; omega
  | ⟨1, _⟩ => show win2_1.index t (1 : Fin 2) * 64 + 1 * (y 1).val = (y 1).val; rw [e1]; omega

/-- The transposed weight's one block is the whole array. -/
theorem blk2_eq (c : Dev nD) (t : Fin cfg2.N) : (iblk2 V c 2 t : S16x64.Idx → EReal) = (V c main_v29 : S16x64.Idx → EReal) := by
  obtain ⟨-, -, -, -, e0, e1, -⟩ := idx_facts t
  funext y
  unfold iblk2
  rw [View.read_apply]
  show V c main_v29 _ = V c main_v29 _
  congr 1
  funext a; apply Fin.ext
  match a with
  | ⟨0, _⟩ => show win2_2.index t (0 : Fin 2) * 16 + 1 * (y 0).val = (y 0).val; rw [e0]; omega
  | ⟨1, _⟩ => show win2_2.index t (1 : Fin 2) * 64 + 1 * (y 1).val = (y 1).val; rw [e1]; omega

/-- The bias row's one block is the whole row. -/
theorem blk3_eq (c : Dev nD) (t : Fin cfg2.N) : (iblk2 V c 3 t : S1x64.Idx → EReal) = (V c main_v30 : S1x64.Idx → EReal) := by
  obtain ⟨-, -, -, -, -, -, e0, e1, -⟩ := idx_facts t
  funext y
  unfold iblk2
  rw [View.read_apply]
  show V c main_v30 _ = V c main_v30 _
  congr 1
  funext a; apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- The message stage of the four arrays the region reads. -/
abbrev result (c : Dev nD) : S1600000x64.Idx → EReal :=
  edgeStage (V c main_arg3 : S1600000x16.Idx → EReal) (V c main_v28 : S1600000x64.Idx → EReal) (V c main_v29 : S16x64.Idx → EReal) (V c main_v30 : S1x64.Idx → EReal)

/-- What point t writes back is block t of the stage of the whole arrays. -/
theorem flushed_eq (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4, out_eq, blk0_eq, blk1_eq, blk2_eq, blk3_eq, ← edgeStage_rows]
  obtain ⟨-, -, -, -, -, -, -, -, e0, e1⟩ := idx_facts t
  funext y
  rw [View.read_apply]
  unfold rowsFrom
  show result V c _ = result V c _
  congr 1
  funext a; apply Fin.ext
  match a with
  | ⟨0, _⟩ => show 8000 * t.val + (y 0).val = win2_4.index t (0 : Fin 2) * 8000 + 1 * (y 0).val; rw [e0]; omega
  | ⟨1, _⟩ => show (y 1).val = win2_4.index t (1 : Fin 2) * 64 + 1 * (y 1).val; rw [e1]; omega

/-- An index of the output array is in point t's block iff each coordinate is in the block's range on its axis. -/
theorem mem_blk (t : Fin cfg2.N) (i : S1600000x64.Idx) :
    i ∈ ((cfg2.win 4).blk t).view.set ↔ ∀ a : Fin 2, win2_4.index t a * S8000x64.size a ≤ (i a).val ∧ (i a).val < win2_4.index t a * S8000x64.size a + S8000x64.size a := by
  show i ∈ ((View.whole main_v31).slice (win2_4.rect t)).set ↔ _
  rw [View.set_slice_whole, Rect.mem_set_unit]
  exact Iff.rfl

/-- THE ARRAY the region leaves at its output: the message stage of the four arrays it reads. -/
theorem final (c : Dev nD) : (dat2 V c).arrAt 4 cfg2.N = result V c :=
  (dat2 V c).arrAt_eq_of_cover 4 (result V c) (fun t _ => flushed_eq V c t) fun i => by
    have hi0 : ((i : S1600000x64.Idx) 0).val < 1600000 := (i 0).isLt
    have hi1 : ((i : S1600000x64.Idx) 1).val < 64 := (i 1).isLt
    have hN : cfg2.N = 200 := N_2
    refine ⟨⟨((i : S1600000x64.Idx) 0).val / 8000, by rw [hN]; omega⟩, flush2_4 _, ?_⟩
    obtain ⟨-, -, -, -, -, -, -, -, e0, e1⟩ := idx_facts ⟨((i : S1600000x64.Idx) 0).val / 8000, by rw [hN]; omega⟩
    rw [mem_blk]
    intro a
    match a with
    | ⟨0, _⟩ => show win2_4.index _ (0 : Fin 2) * 8000 ≤ (i 0).val ∧ (i 0).val < win2_4.index _ (0 : Fin 2) * 8000 + 8000; rw [e0]; dsimp only; omega
    | ⟨1, _⟩ => show win2_4.index _ (1 : Fin 2) * 64 ≤ (i 1).val ∧ (i 1).val < win2_4.index _ (1 : Fin 2) * 64 + 64; rw [e1]; omega

end Cert.KernelIdeal.Edge2

end
-- ==== Proof.Node3.lean ====
/-
  Region 3 (a node stage over 20 blocks of 5000 nodes), at ANY contents V of the core's buffers when the region is
  entered: the array the region leaves at its output is the node stage of the six arrays it reads.

  Block t of the node-feature array and of the aggregated-messages array is rows 5000 t … 5000 t + 4999; the two
  transposed weights and the two bias rows are one block each, the same at every point. What point t writes back is the
  node stage of its six blocks, which is rows 5000 t … of the stage of the whole arrays; the 20 written blocks tile the
  100000 rows, row r lying in block r / 5000.
-/
import proofs.«130035_j79439715107083_2_alg».proof.Proof.KernelIdealFrameP
import proofs.«130035_j79439715107083_2_alg».proof.Proof.Payloads
import Idealize.ShloMosaic.Lib.Pipeline.Value

set_option maxRecDepth 16384

noncomputable section

namespace Cert.KernelIdeal.Node3

open Cert.KernelIdeal Cert.KernelIdeal.Gen Cert.Gine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store is the node stage of the six loaded blocks. -/
theorem out_eq (x0 x1 : Vec Ideal S5000x64 .f32) (x2 : Vec Ideal S64x64 .f32) (x3 : Vec Ideal S1x64 .f32)
    (x4 : Vec Ideal S64x64 .f32) (x5 : Vec Ideal S1x64 .f32) :
    out3_6 (F := Ideal) x0 x1 x2 x3 x4 x5 = nodeStage x0 x1 x2 x3 x4 x5 := by
  unfold out3_6
  rw [View.canon_unit_zero hz]
  simp only [View.ld_unit_zero (S := S5000x64) hz, View.ld_unit_zero (S := S64x64) hz, View.ld_unit_zero (S := S1x64) hz]
  exact pay3_eq _ _ _ _ _ _

/-- The printed index maps, decided over the 20 points: the row-blocked windows sit at block (t, 0), the four
    whole-array windows at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem rows_le (t : Fin cfg3.N) : 5000 * t.val + 5000 ≤ 100000 := by
  have h : t.val < 20 := Nat.lt_of_lt_of_eq t.isLt N_3
  omega

/-- A row-blocked window's block t is rows 5000 t … of its array. -/
theorem blk0_eq (c : Dev nD) (t : Fin cfg3.N) :
    (iblk3 V c 0 t : S5000x64.Idx → EReal) = rowsFrom (5000 * t.val) (rows_le t) (V c main_v21 : S100000x64.Idx → EReal) := by
  obtain ⟨e0, e1, -⟩ := idx_facts t
  funext y
  unfold iblk3 rowsFrom
  rw [View.read_apply]
  show V c main_v21 _ = V c main_v21 _
  congr 1
  funext a; apply Fin.ext
  match a with
  | ⟨0, _⟩ => show win3_0.index t (0 : Fin 2) * 5000 + 1 * (y 0).val = 5000 * t.val + (y 0).val; rw [e0]; omega
  | ⟨1, _⟩ => show win3_0.index t (1 : Fin 2) * 64 + 1 * (y 1).val = (y 1).val; rw [e1]; omega

theorem blk1_eq (c : Dev nD) (t : Fin cfg3.N) :
    (iblk3 V c 1 t : S5000x64.Idx → EReal) = rowsFrom (5000 * t.val) (rows_le t) (V c main_v34 : S100000x64.Idx → EReal) := by
  obtain ⟨-, -, e0, e1, -⟩ := idx_facts t
  funext y
  unfold iblk3 rowsFrom
  rw [View.read_apply]
  show V c main_v34 _ = V c main_v34 _
  congr 1
  funext a; apply Fin.ext
  match a with
  | ⟨0, _⟩ => show win3_1.index t (0 : Fin 2) * 5000 + 1 * (y 0).val = 5000 * t.val + (y 0).val; rw [e0]; omega
  | ⟨1, _⟩ => show win3_1.index t (1 : Fin 2) * 64 + 1 * (y 1).val = (y 1).val; rw [e1]; omega

/-- A transposed weight's one block is the whole array. -/
theorem blk2_eq (c : Dev nD) (t : Fin cfg3.N) : (iblk3 V c 2 t : S64x64.Idx → EReal) = (V c main_v35 : S64x64.Idx → EReal) := by
  obtain ⟨-, -, -, -, e0, e1, -⟩ := idx_facts t
  funext y
  unfold iblk3
  rw [View.read_apply]
  show V c main_v35 _ = V c main_v35 _
  congr 1
  funext a; apply Fin.ext
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- A bias row's one block is the whole row. -/
theorem blk3_eq (c : Dev nD) (t : Fin cfg3.N) : (iblk3 V c 3 t : S1x64.Idx → EReal) = (V c main_v37 : S1x64.Idx → EReal) := by
  obtain ⟨-, -, -, -, -, -, e0, e1, -⟩ := idx_facts t
  funext y
  unfold iblk3
  rw [View.read_apply]
  show V c main_v37 _ = V c main_v37 _
  congr 1
  funext a; apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

theorem blk4_eq (c : Dev nD) (t : Fin cfg3.N) : (iblk3 V c 4 t : S64x64.Idx → EReal) = (V c main_v36 : S64x64.Idx → EReal) := by
  obtain ⟨-, -, -, -, -, -, -, -, e0, e1, -⟩ := idx_facts t
  funext y
  unfold iblk3
  rw [View.read_apply]
  show V c main_v36 _ = V c main_v36 _
  congr 1
  funext a; apply Fin.ext
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

theorem blk5_eq (c : Dev nD) (t : Fin cfg3.N) : (iblk3 V c 5 t : S1x64.Idx → EReal) = (V c main_v38 : S1x64.Idx → EReal) := by
  obtain ⟨-, -, -, -, -, -, -, -, -, -, e0, e1, -⟩ := idx_facts t
  funext y
  unfold iblk3
  rw [View.read_apply]
  show V c main_v38 _ = V c main_v38 _
  congr 1
  funext a; apply Fin.ext
  match a with
  | ⟨0, _⟩ => show win3_5.index t (0 : Fin 2) * 1 + 1 * (y 0).val = (y 0).val; rw [e0]; omega
  | ⟨1, _⟩ => show win3_5.index t (1 : Fin 2) * 64 + 1 * (y 1).val = (y 1).val; rw [e1]; omega

/-- The node stage of the six arrays the region reads. -/
abbrev result (c : Dev nD) : S100000x64.Idx → EReal :=
  nodeStage (V c main_v21 : S100000x64.Idx → EReal) (V c main_v34 : S100000x64.Idx → EReal) (V c main_v35 : S64x64.Idx → EReal)
    (V c main_v37 : S1x64.Idx → EReal) (V c main_v36 : S64x64.Idx → EReal) (V c main_v38 : S1x64.Idx → EReal)

/-- What point t writes back is block t of the stage of the whole arrays. -/
theorem flushed_eq (c : Dev nD) (t : Fin cfg3.N) :
    (dat3 V c).flushed 6 t = ((cfg3.win 6).blk t).view.read (Elt Ideal) (result V c) := by
  show (cfg3.win 6).cut (grid3.coords t) ((dat3 V c).after 6 t) = _
  rw [after3_6, out_eq, blk0_eq, blk1_eq, blk2_eq, blk3_eq, blk4_eq, blk5_eq, ← nodeStage_rows]
  obtain ⟨-, -, -, -, -, -, -, -, -, -, -, -, e0, e1⟩ := idx_facts t
  funext y
  rw [View.read_apply]
  unfold rowsFrom
  show result V c _ = result V c _
  congr 1
  funext a; apply Fin.ext
  match a with
  | ⟨0, _⟩ => show 5000 * t.val + (y 0).val = win3_6.index t (0 : Fin 2) * 5000 + 1 * (y 0).val; rw [e0]; omega
  | ⟨1, _⟩ => show (y 1).val = win3_6.index t (1 : Fin 2) * 64 + 1 * (y 1).val; rw [e1]; omega

/-- An index of the output array is in point t's block iff each coordinate is in the block's range on its axis. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v39).slice (win3_6.rect t)).set ↔ _
  rw [View.set_slice_whole, Rect.mem_set_unit]
  exact Iff.rfl

/-- THE ARRAY the region leaves at its output: the node stage of the six arrays it reads. -/
theorem final (c : Dev nD) : (dat3 V c).arrAt 6 cfg3.N = result V c :=
  (dat3 V c).arrAt_eq_of_cover 6 (result V c) (fun t _ => flushed_eq V c t) fun i => by
    have hi0 : ((i : S100000x64.Idx) 0).val < 100000 := (i 0).isLt
    have hi1 : ((i : S100000x64.Idx) 1).val < 64 := (i 1).isLt
    have hN : cfg3.N = 20 := N_3
    refine ⟨⟨((i : S100000x64.Idx) 0).val / 5000, by rw [hN]; omega⟩, flush3_6 _, ?_⟩
    obtain ⟨-, -, -, -, -, -, -, -, -, -, -, -, e0, e1⟩ := idx_facts ⟨((i : S100000x64.Idx) 0).val / 5000, by rw [hN]; omega⟩
    rw [mem_blk]
    intro a
    match a with
    | ⟨0, _⟩ => show win3_6.index _ (0 : Fin 2) * 5000 ≤ (i 0).val ∧ (i 0).val < win3_6.index _ (0 : Fin 2) * 5000 + 5000; rw [e0]; dsimp only; omega
    | ⟨1, _⟩ => show win3_6.index _ (1 : Fin 2) * 64 ≤ (i 1).val ∧ (i 1).val < win3_6.index _ (1 : Fin 2) * 64 + 64; rw [e1]; omega

end Cert.KernelIdeal.Node3

end
-- ==== Proof.RefStages.lean ====
/-
  The reference's four dense stages, as the stages of Stages.lean: each layer's messages are the message stage of the
  edge attributes, the gathered node features, the transposed edge weight and the bias row; each layer's node update is
  the node stage of the node features, the scatter-added messages, the two transposed weights and the two bias rows.
  The host's contraction over one axis is the sum over that axis; a row broadcast down the rows reads the row at (0, q);
  the clamp's zero is the same word the kernel clamps against.
-/
import proofs.«130035_j79439715107083_2_alg».proof.Proof.Gen.ReferenceIdeal.Read
import proofs.«130035_j79439715107083_2_alg».proof.Proof.Stages

noncomputable section

namespace Cert.ReferenceIdeal.Stages

open Cert.ReferenceIdeal Cert.ReferenceIdeal.Gen Cert.ReferenceIdeal.Read Cert.Gine Cert.Gcn.Dense
open Idealize.ShloMosaic Idealize.ShloMosaic.ValueIdx

/-- The reference's messages of layer 1: the message stage of the attributes, the gathered features, the transposed weight
    and the bias row. -/
theorem edge1 (x0 : (⟨S100000x64, .f32⟩ : BufTy).Contents (Elt Ideal)) (x1 : (⟨S2x1600000, .i32⟩ : BufTy).Contents (Elt Ideal)) (x3 : (⟨S1600000x16, .f32⟩ : BufTy).Contents (Elt Ideal)) (x4 : (⟨S64x16, .f32⟩ : BufTy).Contents (Elt Ideal)) (x5 : (⟨S64, .f32⟩ : BufTy).Contents (Elt Ideal)) :
    val_main_v17 (F := Ideal) x0 x1 x3 x4 x5 = edgeStage x3 (val_main_v15 (F := Ideal) x0 x1) (val_main_v4 (F := Ideal) x4) (val_main_v6 (F := Ideal) x5) := by
  funext i
  have el : ∀ (j : S1600000x64.Idx) (k : Fin 16), lidx_main_v5 j k = ix2 (j 0) k := fun j k => funext fun a => Fin.ext (by match a with | ⟨0, _⟩ => rfl | ⟨1, _⟩ => rfl)
  have er : ∀ (j : S1600000x64.Idx) (k : Fin 16), ridx_main_v5 j k = ix2 k (j 1) := fun j k => funext fun a => Fin.ext (by match a with | ⟨0, _⟩ => rfl | ⟨1, _⟩ => rfl)
  have eb : ∀ j : S1600000x64.Idx, idx_main_v7 j = ix2 0 (j 1) := fun j => funext fun a => Fin.ext (by match a with | ⟨0, _⟩ => rfl | ⟨1, _⟩ => rfl)
  rw [val_main_v17_apply, val_main_v16_apply, val_main_v8_apply, val_main_v5_apply, val_main_v7_apply,
    val_main_call0_v0_apply, val_main_call0_cst_apply]
  simp only [el, er, eb]
  rfl

/-- The reference's node update of layer 1: the node stage of the node features, the aggregated messages, the two
    transposed weights and the two bias rows. -/
theorem node1 (x0 : (⟨S100000x64, .f32⟩ : BufTy).Contents (Elt Ideal)) (x1 : (⟨S2x1600000, .i32⟩ : BufTy).Contents (Elt Ideal)) (x3 : (⟨S1600000x16, .f32⟩ : BufTy).Contents (Elt Ideal)) (x4 : (⟨S64x16, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v32 (F := Ideal) x0 x1 x3 x4 x5 x6 x7 x8 x9 = nodeStage (x0) (val_main_v20 (F := Ideal) x0 x1 x3 x4 x5) (val_main_v22 (F := Ideal) x6) (val_main_v24 (F := Ideal) x7) (val_main_v28 (F := Ideal) x8) (val_main_v30 (F := Ideal) x9) := by
  funext i
  have el1 : ∀ (j : S100000x64.Idx) (k : Fin 64), lidx_main_v23 j k = ix2 (n0 := 100000) (n1 := 64) (j 0) k := fun j k => funext fun a => Fin.ext (by match a with | ⟨0, _⟩ => rfl | ⟨1, _⟩ => rfl)
  have er1 : ∀ (j : S100000x64.Idx) (k : Fin 64), ridx_main_v23 j k = ix2 (n0 := 64) (n1 := 64) k (j 1) := fun j k => funext fun a => Fin.ext (by match a with | ⟨0, _⟩ => rfl | ⟨1, _⟩ => rfl)
  have eb1 : ∀ j : S100000x64.Idx, idx_main_v25 j = ix2 (n0 := 1) (n1 := 64) 0 (j 1) := fun j => funext fun a => Fin.ext (by match a with | ⟨0, _⟩ => rfl | ⟨1, _⟩ => rfl)
  have el2 : ∀ (j : S100000x64.Idx) (k : Fin 64), lidx_main_v29 j k = ix2 (n0 := 100000) (n1 := 64) (j 0) k := fun j k => funext fun a => Fin.ext (by match a with | ⟨0, _⟩ => rfl | ⟨1, _⟩ => rfl)
  have er2 : ∀ (j : S100000x64.Idx) (k : Fin 64), ridx_main_v29 j k = ix2 (n0 := 64) (n1 := 64) k (j 1) := fun j k => funext fun a => Fin.ext (by match a with | ⟨0, _⟩ => rfl | ⟨1, _⟩ => rfl)
  have eb2 : ∀ j : S100000x64.Idx, idx_main_v31 j = ix2 (n0 := 1) (n1 := 64) 0 (j 1) := fun j => funext fun a => Fin.ext (by match a with | ⟨0, _⟩ => rfl | ⟨1, _⟩ => rfl)
  simp only [val_main_v32_apply, val_main_v29_apply, val_main_v31_apply, val_main_v27_apply, val_main_v26_apply,
    val_main_v23_apply, val_main_v25_apply, val_main_v21_apply, val_main_call1_v0_apply, val_main_call1_cst_apply]
  simp only [el1, er1, eb1, el2, er2, eb2]
  rfl

/-- The reference's messages of layer 2: the message stage of the attributes, the gathered features, the transposed weight
    and the bias row. -/
theorem edge2 (x0 : (⟨S100000x64, .f32⟩ : BufTy).Contents (Elt Ideal)) (x1 : (⟨S2x1600000, .i32⟩ : BufTy).Contents (Elt Ideal)) (x3 : (⟨S1600000x16, .f32⟩ : BufTy).Contents (Elt Ideal)) (x4 : (⟨S64x16, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x16, .f32⟩ : BufTy).Contents (Elt Ideal)) (x11 : (⟨S64, .f32⟩ : BufTy).Contents (Elt Ideal)) :
    val_main_v46 (F := Ideal) x0 x1 x3 x4 x5 x6 x7 x8 x9 x10 x11 = edgeStage x3 (val_main_v44 (F := Ideal) x0 x1 x3 x4 x5 x6 x7 x8 x9) (val_main_v33 (F := Ideal) x10) (val_main_v35 (F := Ideal) x11) := by
  funext i
  have el : ∀ (j : S1600000x64.Idx) (k : Fin 16), lidx_main_v34 j k = ix2 (j 0) k := fun j k => funext fun a => Fin.ext (by match a with | ⟨0, _⟩ => rfl | ⟨1, _⟩ => rfl)
  have er : ∀ (j : S1600000x64.Idx) (k : Fin 16), ridx_main_v34 j k = ix2 k (j 1) := fun j k => funext fun a => Fin.ext (by match a with | ⟨0, _⟩ => rfl | ⟨1, _⟩ => rfl)
  have eb : ∀ j : S1600000x64.Idx, idx_main_v36 j = ix2 0 (j 1) := fun j => funext fun a => Fin.ext (by match a with | ⟨0, _⟩ => rfl | ⟨1, _⟩ => rfl)
  rw [val_main_v46_apply, val_main_v45_apply, val_main_v37_apply, val_main_v34_apply, val_main_v36_apply,
    val_main_call2_v0_apply, val_main_call2_cst_apply]
  simp only [el, er, eb]
  rfl

/-- The reference's node update of layer 2: the node stage of the node features, the aggregated messages, the two
    transposed weights and the two bias rows. -/
theorem node2 (x0 : (⟨S100000x64, .f32⟩ : BufTy).Contents (Elt Ideal)) (x1 : (⟨S2x1600000, .i32⟩ : BufTy).Contents (Elt Ideal)) (x3 : (⟨S1600000x16, .f32⟩ : BufTy).Contents (Elt Ideal)) (x4 : (⟨S64x16, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x16, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) :
    val_main_v61 (F := Ideal) x0 x1 x3 x4 x5 x6 x7 x8 x9 x10 x11 x12 x13 x14 x15 = nodeStage (val_main_v32 (F := Ideal) x0 x1 x3 x4 x5 x6 x7 x8 x9) (val_main_v49 (F := Ideal) x0 x1 x3 x4 x5 x6 x7 x8 x9 x10 x11) (val_main_v51 (F := Ideal) x12) (val_main_v53 (F := Ideal) x13) (val_main_v57 (F := Ideal) x14) (val_main_v59 (F := Ideal) x15) := by
  funext i
  have el1 : ∀ (j : S100000x64.Idx) (k : Fin 64), lidx_main_v52 j k = ix2 (n0 := 100000) (n1 := 64) (j 0) k := fun j k => funext fun a => Fin.ext (by match a with | ⟨0, _⟩ => rfl | ⟨1, _⟩ => rfl)
  have er1 : ∀ (j : S100000x64.Idx) (k : Fin 64), ridx_main_v52 j k = ix2 (n0 := 64) (n1 := 64) k (j 1) := fun j k => funext fun a => Fin.ext (by match a with | ⟨0, _⟩ => rfl | ⟨1, _⟩ => rfl)
  have eb1 : ∀ j : S100000x64.Idx, idx_main_v54 j = ix2 (n0 := 1) (n1 := 64) 0 (j 1) := fun j => funext fun a => Fin.ext (by match a with | ⟨0, _⟩ => rfl | ⟨1, _⟩ => rfl)
  have el2 : ∀ (j : S100000x64.Idx) (k : Fin 64), lidx_main_v58 j k = ix2 (n0 := 100000) (n1 := 64) (j 0) k := fun j k => funext fun a => Fin.ext (by match a with | ⟨0, _⟩ => rfl | ⟨1, _⟩ => rfl)
  have er2 : ∀ (j : S100000x64.Idx) (k : Fin 64), ridx_main_v58 j k = ix2 (n0 := 64) (n1 := 64) k (j 1) := fun j k => funext fun a => Fin.ext (by match a with | ⟨0, _⟩ => rfl | ⟨1, _⟩ => rfl)
  have eb2 : ∀ j : S100000x64.Idx, idx_main_v60 j = ix2 (n0 := 1) (n1 := 64) 0 (j 1) := fun j => funext fun a => Fin.ext (by match a with | ⟨0, _⟩ => rfl | ⟨1, _⟩ => rfl)
  simp only [val_main_v61_apply, val_main_v58_apply, val_main_v60_apply, val_main_v56_apply, val_main_v55_apply,
    val_main_v52_apply, val_main_v54_apply, val_main_v50_apply, val_main_call3_v0_apply, val_main_call3_cst_apply]
  simp only [el1, er1, eb1, el2, er2, eb2]
  rfl

end Cert.ReferenceIdeal.Stages

end
-- ==== Proof.Walk.lean ====
/-
  The idealized kernel's buffers at each of the nine boundaries between its segments, as values of the launch arrays —
  each the very term the reference computes at the corresponding line.

  A host stretch rewrites the buffers it writes with its operations' values and keeps every other buffer; a region
  changes only its output array, which it leaves at the stage of its input arrays (the message stage for the two edge
  regions, the node stage for the two node regions). Walking the boundaries in order: the source and destination index
  vectors; the gathered features, the transposed weights and the bias rows before each region; each region's output; the
  scatter-added messages after it; and at the end the pooled, projected result. The two programs apply the same gathers,
  scatter-adds and pooling tail to these values, so those are never opened.

  One layout fact is used six times: a bias vector reshaped to one row (the kernel's form) and the same vector
  broadcast along axis 1 into one row (the reference's form) are the same row.
-/
import proofs.«130035_j79439715107083_2_alg».proof.Proof.KernelIdealFrameP
import proofs.«130035_j79439715107083_2_alg».proof.Proof.Edge0
import proofs.«130035_j79439715107083_2_alg».proof.Proof.Node1
import proofs.«130035_j79439715107083_2_alg».proof.Proof.Edge2
import proofs.«130035_j79439715107083_2_alg».proof.Proof.Node3
import proofs.«130035_j79439715107083_2_alg».proof.Proof.RefStages
import Idealize.ShloMosaic.Lib.StableHlo.Run
import Idealize.ShloMosaic.Lib.Pipeline.Value

set_option maxRecDepth 16384

noncomputable section

namespace Cert.KernelIdeal.Walk

open Cert.KernelIdeal Cert.KernelIdeal.Gen Cert.Gine
open Cert.ReferenceIdeal.Read
open Idealize.ShloMosaic Idealize.ShloMosaic.TcCoe Idealize.ShloMosaic.ValueIdx Idealize.SL.Sem Idealize.ShloMosaic.StableHlo

/-- A vector of 64 entries reshaped to one row is the vector broadcast along axis 1 into one row. -/
theorem biasRow {α : Type} (x : (⟨1, ![64]⟩ : Shape).Idx → α) (h1 : (⟨1, ![64]⟩ : Shape).ShapeCasts ⟨2, ![1, 64]⟩)
    (hd : (⟨1, ![64]⟩ : Shape).BroadcastsInDim ⟨2, ![1, 64]⟩ ![1]) :
    shapeCast ⟨2, ![1, 64]⟩ x h1 = broadcastInDim ⟨2, ![1, 64]⟩ ![1] hd x := by
  funext i
  have h0 : (i 0).val < 1 := (i 0).isLt
  have e2 := shapeCast_apply x h1 i (ix1 (i 1 : Fin 64)) (by
    rw [Shape.rowMajor_val_two, Shape.rowMajor_val_one]; show (i 1).val = (i 0).val * 64 + (i 1).val; omega)
  have e3 := broadcastInDim_apply ![1] hd x i (ix1 (i 1 : Fin 64)) (by
    intro a
    match a with
    | ⟨0, _⟩ => show (i 1).val = if (64 : Nat) = 1 then 0 else (i 1).val; rw [if_neg (by decide)])
  exact e2.trans e3.symm

variable (m : (ℓ : Loc nD τ sig) → Buf (Elt Ideal) ℓ) (ρ : Dev nD → PrngReg) (c : Dev nD)

/-- A launch array. -/
abbrev arr (b : Ref sig .tc) : Buf (Elt Ideal) ((c : Thread nD τ).loc b) := m ((c : Thread nD τ).loc b)

/-! ## What each segment leaves alone -/

/-- The buffers host stretch 0 writes. -/
abbrev written0 : List (Ref sig .tc) := [main_v0, main_v1, main_v2, main_v3, main_c, main_v4, main_v5, main_c_0, main_v6, main_v7, main_v8, main_v9, main_v10, main_v11, main_v12]
theorem written0_sub : (hostOps0 : List (HloOp τ sig (Elt Ideal))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 0 does not write keeps its contents across it. -/
theorem keep1 (r : Ref sig .tc) (h : r ∉ written0) : W1 m ρ c (Proc.devRef .tc r) = W0 m ρ c (Proc.devRef .tc r) :=
  StableHlo.after_of_writes_sub hostOps0 _ written0_sub h

/-- Region 0 changes only its output array: an input array is read, never written, and every other buffer is untouched. -/
theorem keep2 (r : Ref sig .tc) (h : r ≠ main_v13) : W2 m ρ c (Proc.devRef .tc r) = W1 m ρ c (Proc.devRef .tc r) := by
  by_cases h0 : r = main_arg3
  · subst h0; exact (W2_arr m ρ c 0).trans (((dat0 (V1 m ρ) c).arrAt_in 0 rfl _).trans (A_eq0 (V1 m ρ) c 0))
  by_cases h1 : r = main_v10
  · subst h1; exact (W2_arr m ρ c 1).trans (((dat0 (V1 m ρ) c).arrAt_in 1 rfl _).trans (A_eq0 (V1 m ρ) c 1))
  by_cases h2 : r = main_v11
  · subst h2; exact (W2_arr m ρ c 2).trans (((dat0 (V1 m ρ) c).arrAt_in 2 rfl _).trans (A_eq0 (V1 m ρ) c 2))
  by_cases h3 : r = main_v12
  · subst h3; exact (W2_arr m ρ c 3).trans (((dat0 (V1 m ρ) c).arrAt_in 3 rfl _).trans (A_eq0 (V1 m ρ) c 3))
  refine W2_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm

/-- The buffers host stretch 1 writes. -/
abbrev written1 : List (Ref sig .tc) := [main_cst, main_v14, main_v15, main_v16, main_v17, main_v18, main_v19, main_v20]
theorem written1_sub : (hostOps1 : List (HloOp τ sig (Elt Ideal))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 1 does not write keeps its contents across it. -/
theorem keep3 (r : Ref sig .tc) (h : r ∉ written1) : W3 m ρ c (Proc.devRef .tc r) = W2 m ρ c (Proc.devRef .tc r) :=
  StableHlo.after_of_writes_sub hostOps1 _ written1_sub h

/-- Region 1 changes only its output array: an input array is read, never written, and every other buffer is untouched. -/
theorem keep4 (r : Ref sig .tc) (h : r ≠ main_v21) : W4 m ρ c (Proc.devRef .tc r) = W3 m ρ c (Proc.devRef .tc r) := by
  by_cases h0 : r = main_arg0
  · subst h0; exact (W4_arr m ρ c 0).trans (((dat1 (V3 m ρ) c).arrAt_in 0 rfl _).trans (A_eq1 (V3 m ρ) c 0))
  by_cases h1 : r = main_v16
  · subst h1; exact (W4_arr m ρ c 1).trans (((dat1 (V3 m ρ) c).arrAt_in 1 rfl _).trans (A_eq1 (V3 m ρ) c 1))
  by_cases h2 : r = main_v17
  · subst h2; exact (W4_arr m ρ c 2).trans (((dat1 (V3 m ρ) c).arrAt_in 2 rfl _).trans (A_eq1 (V3 m ρ) c 2))
  by_cases h3 : r = main_v19
  · subst h3; exact (W4_arr m ρ c 3).trans (((dat1 (V3 m ρ) c).arrAt_in 3 rfl _).trans (A_eq1 (V3 m ρ) c 3))
  by_cases h4 : r = main_v18
  · subst h4; exact (W4_arr m ρ c 4).trans (((dat1 (V3 m ρ) c).arrAt_in 4 rfl _).trans (A_eq1 (V3 m ρ) c 4))
  by_cases h5 : r = main_v20
  · subst h5; exact (W4_arr m ρ c 5).trans (((dat1 (V3 m ρ) c).arrAt_in 5 rfl _).trans (A_eq1 (V3 m ρ) c 5))
  refine W4_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h5 e.symm
    | ⟨6, _⟩ => exact fun e => h e.symm

/-- The buffers host stretch 2 writes. -/
abbrev written2 : List (Ref sig .tc) := [main_c_1, main_v22, main_v23, main_c_2, main_v24, main_v25, main_v26, main_v27, main_v28, main_v29, main_v30]
theorem written2_sub : (hostOps2 : List (HloOp τ sig (Elt Ideal))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 2 does not write keeps its contents across it. -/
theorem keep5 (r : Ref sig .tc) (h : r ∉ written2) : W5 m ρ c (Proc.devRef .tc r) = W4 m ρ c (Proc.devRef .tc r) :=
  StableHlo.after_of_writes_sub hostOps2 _ written2_sub h

/-- Region 2 changes only its output array: an input array is read, never written, and every other buffer is untouched. -/
theorem keep6 (r : Ref sig .tc) (h : r ≠ main_v31) : W6 m ρ c (Proc.devRef .tc r) = W5 m ρ c (Proc.devRef .tc r) := by
  by_cases h0 : r = main_arg3
  · subst h0; exact (W6_arr m ρ c 0).trans (((dat2 (V5 m ρ) c).arrAt_in 0 rfl _).trans (A_eq2 (V5 m ρ) c 0))
  by_cases h1 : r = main_v28
  · subst h1; exact (W6_arr m ρ c 1).trans (((dat2 (V5 m ρ) c).arrAt_in 1 rfl _).trans (A_eq2 (V5 m ρ) c 1))
  by_cases h2 : r = main_v29
  · subst h2; exact (W6_arr m ρ c 2).trans (((dat2 (V5 m ρ) c).arrAt_in 2 rfl _).trans (A_eq2 (V5 m ρ) c 2))
  by_cases h3 : r = main_v30
  · subst h3; exact (W6_arr m ρ c 3).trans (((dat2 (V5 m ρ) c).arrAt_in 3 rfl _).trans (A_eq2 (V5 m ρ) c 3))
  refine W6_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm

/-- The buffers host stretch 3 writes. -/
abbrev written3 : List (Ref sig .tc) := [main_cst_3, main_v32, main_v33, main_v34, main_v35, main_v36, main_v37, main_v38]
theorem written3_sub : (hostOps3 : List (HloOp τ sig (Elt Ideal))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 3 does not write keeps its contents across it. -/
theorem keep7 (r : Ref sig .tc) (h : r ∉ written3) : W7 m ρ c (Proc.devRef .tc r) = W6 m ρ c (Proc.devRef .tc r) :=
  StableHlo.after_of_writes_sub hostOps3 _ written3_sub h

/-- Region 3 changes only its output array: an input array is read, never written, and every other buffer is untouched. -/
theorem keep8 (r : Ref sig .tc) (h : r ≠ main_v39) : W8 m ρ c (Proc.devRef .tc r) = W7 m ρ c (Proc.devRef .tc r) := by
  by_cases h0 : r = main_v21
  · subst h0; exact (W8_arr m ρ c 0).trans (((dat3 (V7 m ρ) c).arrAt_in 0 rfl _).trans (A_eq3 (V7 m ρ) c 0))
  by_cases h1 : r = main_v34
  · subst h1; exact (W8_arr m ρ c 1).trans (((dat3 (V7 m ρ) c).arrAt_in 1 rfl _).trans (A_eq3 (V7 m ρ) c 1))
  by_cases h2 : r = main_v35
  · subst h2; exact (W8_arr m ρ c 2).trans (((dat3 (V7 m ρ) c).arrAt_in 2 rfl _).trans (A_eq3 (V7 m ρ) c 2))
  by_cases h3 : r = main_v37
  · subst h3; exact (W8_arr m ρ c 3).trans (((dat3 (V7 m ρ) c).arrAt_in 3 rfl _).trans (A_eq3 (V7 m ρ) c 3))
  by_cases h4 : r = main_v36
  · subst h4; exact (W8_arr m ρ c 4).trans (((dat3 (V7 m ρ) c).arrAt_in 4 rfl _).trans (A_eq3 (V7 m ρ) c 4))
  by_cases h5 : r = main_v38
  · subst h5; exact (W8_arr m ρ c 5).trans (((dat3 (V7 m ρ) c).arrAt_in 5 rfl _).trans (A_eq3 (V7 m ρ) c 5))
  refine W8_of_ne m ρ c r fun w => ?_
  match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h5 e.symm
    | ⟨6, _⟩ => exact fun e => h e.symm

/-! ## Region 0's entry: after the first host stretch -/

theorem w1_arg0 : W1 m ρ c (Proc.devRef .tc main_arg0) = arr m c main_arg0 :=
  (keep1 m ρ c main_arg0 (by decide)).trans rfl
theorem w1_arg2 : W1 m ρ c (Proc.devRef .tc main_arg2) = arr m c main_arg2 :=
  (keep1 m ρ c main_arg2 (by decide)).trans rfl
theorem w1_arg3 : W1 m ρ c (Proc.devRef .tc main_arg3) = arr m c main_arg3 :=
  (keep1 m ρ c main_arg3 (by decide)).trans rfl
theorem w1_arg6 : W1 m ρ c (Proc.devRef .tc main_arg6) = arr m c main_arg6 :=
  (keep1 m ρ c main_arg6 (by decide)).trans rfl
theorem w1_arg7 : W1 m ρ c (Proc.devRef .tc main_arg7) = arr m c main_arg7 :=
  (keep1 m ρ c main_arg7 (by decide)).trans rfl
theorem w1_arg8 : W1 m ρ c (Proc.devRef .tc main_arg8) = arr m c main_arg8 :=
  (keep1 m ρ c main_arg8 (by decide)).trans rfl
theorem w1_arg9 : W1 m ρ c (Proc.devRef .tc main_arg9) = arr m c main_arg9 :=
  (keep1 m ρ c main_arg9 (by decide)).trans rfl
theorem w1_arg10 : W1 m ρ c (Proc.devRef .tc main_arg10) = arr m c main_arg10 :=
  (keep1 m ρ c main_arg10 (by decide)).trans rfl
theorem w1_arg11 : W1 m ρ c (Proc.devRef .tc main_arg11) = arr m c main_arg11 :=
  (keep1 m ρ c main_arg11 (by decide)).trans rfl
theorem w1_arg12 : W1 m ρ c (Proc.devRef .tc main_arg12) = arr m c main_arg12 :=
  (keep1 m ρ c main_arg12 (by decide)).trans rfl
theorem w1_arg13 : W1 m ρ c (Proc.devRef .tc main_arg13) = arr m c main_arg13 :=
  (keep1 m ρ c main_arg13 (by decide)).trans rfl
theorem w1_arg14 : W1 m ρ c (Proc.devRef .tc main_arg14) = arr m c main_arg14 :=
  (keep1 m ρ c main_arg14 (by decide)).trans rfl
theorem w1_arg15 : W1 m ρ c (Proc.devRef .tc main_arg15) = arr m c main_arg15 :=
  (keep1 m ρ c main_arg15 (by decide)).trans rfl
theorem w1_arg16 : W1 m ρ c (Proc.devRef .tc main_arg16) = arr m c main_arg16 :=
  (keep1 m ρ c main_arg16 (by decide)).trans rfl
theorem w1_arg17 : W1 m ρ c (Proc.devRef .tc main_arg17) = arr m c main_arg17 :=
  (keep1 m ρ c main_arg17 (by decide)).trans rfl
theorem w1_v1 : W1 m ρ c (Proc.devRef .tc main_v1) = val_main_v1 (F := Ideal) (arr m c main_arg1) := by
  show StableHlo.after hostOps0 (W0 m ρ c) (Proc.devRef .tc main_v1) = _
  after_results
  rfl
theorem w1_v3 : W1 m ρ c (Proc.devRef .tc main_v3) = val_main_v3 (F := Ideal) (arr m c main_arg1) := by
  show StableHlo.after hostOps0 (W0 m ρ c) (Proc.devRef .tc main_v3) = _
  after_results
  rfl
theorem w1_v10 : W1 m ρ c (Proc.devRef .tc main_v10) = val_main_v15 (F := Ideal) (arr m c main_arg0) (arr m c main_arg1) := by
  show StableHlo.after hostOps0 (W0 m ρ c) (Proc.devRef .tc main_v10) = _
  after_results
  rfl
theorem w1_v11 : W1 m ρ c (Proc.devRef .tc main_v11) = val_main_v4 (F := Ideal) (arr m c main_arg4) := by
  show StableHlo.after hostOps0 (W0 m ρ c) (Proc.devRef .tc main_v11) = _
  after_results
  rfl
theorem w1_v12 : W1 m ρ c (Proc.devRef .tc main_v12) = val_main_v6 (F := Ideal) (arr m c main_arg5) := by
  show StableHlo.after hostOps0 (W0 m ρ c) (Proc.devRef .tc main_v12) = _
  after_results
  exact biasRow _ _ _

/-! ## Region 0's exit: the first layer's messages -/

theorem w2_v13 : W2 m ρ c (Proc.devRef .tc main_v13) = val_main_v17 (F := Ideal) (arr m c main_arg0) (arr m c main_arg1) (arr m c main_arg3) (arr m c main_arg4) (arr m c main_arg5) := by
  have e : (dat0 (V1 m ρ) c).arrAt 4 cfg0.N = edgeStage (W1 m ρ c (Proc.devRef .tc main_arg3) : S1600000x16.Idx → EReal) (W1 m ρ c (Proc.devRef .tc main_v10) : S1600000x64.Idx → EReal)
      (W1 m ρ c (Proc.devRef .tc main_v11) : S16x64.Idx → EReal) (W1 m ρ c (Proc.devRef .tc main_v12) : S1x64.Idx → EReal) := Edge0.final (V1 m ρ) c
  rw [w1_arg3 m ρ c, w1_v10 m ρ c, w1_v11 m ρ c, w1_v12 m ρ c] at e
  exact (W2_arr m ρ c 4).trans (e.trans (Cert.ReferenceIdeal.Stages.edge1 _ _ _ _ _).symm)
theorem w2_v1 : W2 m ρ c (Proc.devRef .tc main_v1) = val_main_v1 (F := Ideal) (arr m c main_arg1) :=
  (keep2 m ρ c main_v1 (by decide)).trans (w1_v1 m ρ c)
theorem w2_v3 : W2 m ρ c (Proc.devRef .tc main_v3) = val_main_v3 (F := Ideal) (arr m c main_arg1) :=
  (keep2 m ρ c main_v3 (by decide)).trans (w1_v3 m ρ c)
theorem w2_arg0 : W2 m ρ c (Proc.devRef .tc main_arg0) = arr m c main_arg0 :=
  (keep2 m ρ c main_arg0 (by decide)).trans (w1_arg0 m ρ c)
theorem w2_arg2 : W2 m ρ c (Proc.devRef .tc main_arg2) = arr m c main_arg2 :=
  (keep2 m ρ c main_arg2 (by decide)).trans (w1_arg2 m ρ c)
theorem w2_arg3 : W2 m ρ c (Proc.devRef .tc main_arg3) = arr m c main_arg3 :=
  (keep2 m ρ c main_arg3 (by decide)).trans (w1_arg3 m ρ c)
theorem w2_arg6 : W2 m ρ c (Proc.devRef .tc main_arg6) = arr m c main_arg6 :=
  (keep2 m ρ c main_arg6 (by decide)).trans (w1_arg6 m ρ c)
theorem w2_arg7 : W2 m ρ c (Proc.devRef .tc main_arg7) = arr m c main_arg7 :=
  (keep2 m ρ c main_arg7 (by decide)).trans (w1_arg7 m ρ c)
theorem w2_arg8 : W2 m ρ c (Proc.devRef .tc main_arg8) = arr m c main_arg8 :=
  (keep2 m ρ c main_arg8 (by decide)).trans (w1_arg8 m ρ c)
theorem w2_arg9 : W2 m ρ c (Proc.devRef .tc main_arg9) = arr m c main_arg9 :=
  (keep2 m ρ c main_arg9 (by decide)).trans (w1_arg9 m ρ c)
theorem w2_arg10 : W2 m ρ c (Proc.devRef .tc main_arg10) = arr m c main_arg10 :=
  (keep2 m ρ c main_arg10 (by decide)).trans (w1_arg10 m ρ c)
theorem w2_arg11 : W2 m ρ c (Proc.devRef .tc main_arg11) = arr m c main_arg11 :=
  (keep2 m ρ c main_arg11 (by decide)).trans (w1_arg11 m ρ c)
theorem w2_arg12 : W2 m ρ c (Proc.devRef .tc main_arg12) = arr m c main_arg12 :=
  (keep2 m ρ c main_arg12 (by decide)).trans (w1_arg12 m ρ c)
theorem w2_arg13 : W2 m ρ c (Proc.devRef .tc main_arg13) = arr m c main_arg13 :=
  (keep2 m ρ c main_arg13 (by decide)).trans (w1_arg13 m ρ c)
theorem w2_arg14 : W2 m ρ c (Proc.devRef .tc main_arg14) = arr m c main_arg14 :=
  (keep2 m ρ c main_arg14 (by decide)).trans (w1_arg14 m ρ c)
theorem w2_arg15 : W2 m ρ c (Proc.devRef .tc main_arg15) = arr m c main_arg15 :=
  (keep2 m ρ c main_arg15 (by decide)).trans (w1_arg15 m ρ c)
theorem w2_arg16 : W2 m ρ c (Proc.devRef .tc main_arg16) = arr m c main_arg16 :=
  (keep2 m ρ c main_arg16 (by decide)).trans (w1_arg16 m ρ c)
theorem w2_arg17 : W2 m ρ c (Proc.devRef .tc main_arg17) = arr m c main_arg17 :=
  (keep2 m ρ c main_arg17 (by decide)).trans (w1_arg17 m ρ c)

/-! ## Region 1's entry: the messages scatter-added by destination; the first node stage's parameters -/

theorem w3_v16 : W3 m ρ c (Proc.devRef .tc main_v16) = val_main_v20 (F := Ideal) (arr m c main_arg0) (arr m c main_arg1) (arr m c main_arg3) (arr m c main_arg4) (arr m c main_arg5) := by
  show StableHlo.after hostOps1 (W2 m ρ c) (Proc.devRef .tc main_v16) = _
  after_results
  rw [w2_v13 m ρ c, w2_v3 m ρ c]
  rfl
theorem w3_v17 : W3 m ρ c (Proc.devRef .tc main_v17) = val_main_v22 (F := Ideal) (arr m c main_arg6) := by
  show StableHlo.after hostOps1 (W2 m ρ c) (Proc.devRef .tc main_v17) = _
  after_results
  rw [w2_arg6 m ρ c]
  rfl
theorem w3_v18 : W3 m ρ c (Proc.devRef .tc main_v18) = val_main_v28 (F := Ideal) (arr m c main_arg8) := by
  show StableHlo.after hostOps1 (W2 m ρ c) (Proc.devRef .tc main_v18) = _
  after_results
  rw [w2_arg8 m ρ c]
  rfl
theorem w3_v19 : W3 m ρ c (Proc.devRef .tc main_v19) = val_main_v24 (F := Ideal) (arr m c main_arg7) := by
  show StableHlo.after hostOps1 (W2 m ρ c) (Proc.devRef .tc main_v19) = _
  after_results
  rw [w2_arg7 m ρ c]
  exact biasRow _ _ _
theorem w3_v20 : W3 m ρ c (Proc.devRef .tc main_v20) = val_main_v30 (F := Ideal) (arr m c main_arg9) := by
  show StableHlo.after hostOps1 (W2 m ρ c) (Proc.devRef .tc main_v20) = _
  after_results
  rw [w2_arg9 m ρ c]
  exact biasRow _ _ _
theorem w3_v1 : W3 m ρ c (Proc.devRef .tc main_v1) = val_main_v1 (F := Ideal) (arr m c main_arg1) :=
  (keep3 m ρ c main_v1 (by decide)).trans (w2_v1 m ρ c)
theorem w3_v3 : W3 m ρ c (Proc.devRef .tc main_v3) = val_main_v3 (F := Ideal) (arr m c main_arg1) :=
  (keep3 m ρ c main_v3 (by decide)).trans (w2_v3 m ρ c)
theorem w3_arg0 : W3 m ρ c (Proc.devRef .tc main_arg0) = arr m c main_arg0 :=
  (keep3 m ρ c main_arg0 (by decide)).trans (w2_arg0 m ρ c)
theorem w3_arg2 : W3 m ρ c (Proc.devRef .tc main_arg2) = arr m c main_arg2 :=
  (keep3 m ρ c main_arg2 (by decide)).trans (w2_arg2 m ρ c)
theorem w3_arg3 : W3 m ρ c (Proc.devRef .tc main_arg3) = arr m c main_arg3 :=
  (keep3 m ρ c main_arg3 (by decide)).trans (w2_arg3 m ρ c)
theorem w3_arg10 : W3 m ρ c (Proc.devRef .tc main_arg10) = arr m c main_arg10 :=
  (keep3 m ρ c main_arg10 (by decide)).trans (w2_arg10 m ρ c)
theorem w3_arg11 : W3 m ρ c (Proc.devRef .tc main_arg11) = arr m c main_arg11 :=
  (keep3 m ρ c main_arg11 (by decide)).trans (w2_arg11 m ρ c)
theorem w3_arg12 : W3 m ρ c (Proc.devRef .tc main_arg12) = arr m c main_arg12 :=
  (keep3 m ρ c main_arg12 (by decide)).trans (w2_arg12 m ρ c)
theorem w3_arg13 : W3 m ρ c (Proc.devRef .tc main_arg13) = arr m c main_arg13 :=
  (keep3 m ρ c main_arg13 (by decide)).trans (w2_arg13 m ρ c)
theorem w3_arg14 : W3 m ρ c (Proc.devRef .tc main_arg14) = arr m c main_arg14 :=
  (keep3 m ρ c main_arg14 (by decide)).trans (w2_arg14 m ρ c)
theorem w3_arg15 : W3 m ρ c (Proc.devRef .tc main_arg15) = arr m c main_arg15 :=
  (keep3 m ρ c main_arg15 (by decide)).trans (w2_arg15 m ρ c)
theorem w3_arg16 : W3 m ρ c (Proc.devRef .tc main_arg16) = arr m c main_arg16 :=
  (keep3 m ρ c main_arg16 (by decide)).trans (w2_arg16 m ρ c)
theorem w3_arg17 : W3 m ρ c (Proc.devRef .tc main_arg17) = arr m c main_arg17 :=
  (keep3 m ρ c main_arg17 (by decide)).trans (w2_arg17 m ρ c)

/-! ## Region 1's exit: the first layer's node features -/

theorem w4_v21 : W4 m ρ c (Proc.devRef .tc main_v21) = val_main_v32 (F := Ideal) (arr m c main_arg0) (arr m c main_arg1) (arr m c main_arg3) (arr m c main_arg4) (arr m c main_arg5) (arr m c main_arg6) (arr m c main_arg7) (arr m c main_arg8) (arr m c main_arg9) := by
  have e : (dat1 (V3 m ρ) c).arrAt 6 cfg1.N = nodeStage (W3 m ρ c (Proc.devRef .tc main_arg0) : S100000x64.Idx → EReal) (W3 m ρ c (Proc.devRef .tc main_v16) : S100000x64.Idx → EReal)
      (W3 m ρ c (Proc.devRef .tc main_v17) : S64x64.Idx → EReal) (W3 m ρ c (Proc.devRef .tc main_v19) : S1x64.Idx → EReal)
      (W3 m ρ c (Proc.devRef .tc main_v18) : S64x64.Idx → EReal) (W3 m ρ c (Proc.devRef .tc main_v20) : S1x64.Idx → EReal) := Node1.final (V3 m ρ) c
  rw [w3_arg0 m ρ c, w3_v16 m ρ c, w3_v17 m ρ c, w3_v19 m ρ c, w3_v18 m ρ c, w3_v20 m ρ c] at e
  exact (W4_arr m ρ c 6).trans (e.trans (Cert.ReferenceIdeal.Stages.node1 _ _ _ _ _ _ _ _ _).symm)
theorem w4_v1 : W4 m ρ c (Proc.devRef .tc main_v1) = val_main_v1 (F := Ideal) (arr m c main_arg1) :=
  (keep4 m ρ c main_v1 (by decide)).trans (w3_v1 m ρ c)
theorem w4_v3 : W4 m ρ c (Proc.devRef .tc main_v3) = val_main_v3 (F := Ideal) (arr m c main_arg1) :=
  (keep4 m ρ c main_v3 (by decide)).trans (w3_v3 m ρ c)
theorem w4_arg2 : W4 m ρ c (Proc.devRef .tc main_arg2) = arr m c main_arg2 :=
  (keep4 m ρ c main_arg2 (by decide)).trans (w3_arg2 m ρ c)
theorem w4_arg3 : W4 m ρ c (Proc.devRef .tc main_arg3) = arr m c main_arg3 :=
  (keep4 m ρ c main_arg3 (by decide)).trans (w3_arg3 m ρ c)
theorem w4_arg10 : W4 m ρ c (Proc.devRef .tc main_arg10) = arr m c main_arg10 :=
  (keep4 m ρ c main_arg10 (by decide)).trans (w3_arg10 m ρ c)
theorem w4_arg11 : W4 m ρ c (Proc.devRef .tc main_arg11) = arr m c main_arg11 :=
  (keep4 m ρ c main_arg11 (by decide)).trans (w3_arg11 m ρ c)
theorem w4_arg12 : W4 m ρ c (Proc.devRef .tc main_arg12) = arr m c main_arg12 :=
  (keep4 m ρ c main_arg12 (by decide)).trans (w3_arg12 m ρ c)
theorem w4_arg13 : W4 m ρ c (Proc.devRef .tc main_arg13) = arr m c main_arg13 :=
  (keep4 m ρ c main_arg13 (by decide)).trans (w3_arg13 m ρ c)
theorem w4_arg14 : W4 m ρ c (Proc.devRef .tc main_arg14) = arr m c main_arg14 :=
  (keep4 m ρ c main_arg14 (by decide)).trans (w3_arg14 m ρ c)
theorem w4_arg15 : W4 m ρ c (Proc.devRef .tc main_arg15) = arr m c main_arg15 :=
  (keep4 m ρ c main_arg15 (by decide)).trans (w3_arg15 m ρ c)
theorem w4_arg16 : W4 m ρ c (Proc.devRef .tc main_arg16) = arr m c main_arg16 :=
  (keep4 m ρ c main_arg16 (by decide)).trans (w3_arg16 m ρ c)
theorem w4_arg17 : W4 m ρ c (Proc.devRef .tc main_arg17) = arr m c main_arg17 :=
  (keep4 m ρ c main_arg17 (by decide)).trans (w3_arg17 m ρ c)

/-! ## Region 2's entry: the first layer's features gathered by source; the second edge stage's parameters -/

theorem w5_v28 : W5 m ρ c (Proc.devRef .tc main_v28) = val_main_v44 (F := Ideal) (arr m c main_arg0) (arr m c main_arg1) (arr m c main_arg3) (arr m c main_arg4) (arr m c main_arg5) (arr m c main_arg6) (arr m c main_arg7) (arr m c main_arg8) (arr m c main_arg9) := by
  show StableHlo.after hostOps2 (W4 m ρ c) (Proc.devRef .tc main_v28) = _
  after_results
  rw [w4_v21 m ρ c, w4_v1 m ρ c]
  rfl
theorem w5_v29 : W5 m ρ c (Proc.devRef .tc main_v29) = val_main_v33 (F := Ideal) (arr m c main_arg10) := by
  show StableHlo.after hostOps2 (W4 m ρ c) (Proc.devRef .tc main_v29) = _
  after_results
  rw [w4_arg10 m ρ c]
  rfl
theorem w5_v30 : W5 m ρ c (Proc.devRef .tc main_v30) = val_main_v35 (F := Ideal) (arr m c main_arg11) := by
  show StableHlo.after hostOps2 (W4 m ρ c) (Proc.devRef .tc main_v30) = _
  after_results
  rw [w4_arg11 m ρ c]
  exact biasRow _ _ _
theorem w5_v3 : W5 m ρ c (Proc.devRef .tc main_v3) = val_main_v3 (F := Ideal) (arr m c main_arg1) :=
  (keep5 m ρ c main_v3 (by decide)).trans (w4_v3 m ρ c)
theorem w5_v21 : W5 m ρ c (Proc.devRef .tc main_v21) = val_main_v32 (F := Ideal) (arr m c main_arg0) (arr m c main_arg1) (arr m c main_arg3) (arr m c main_arg4) (arr m c main_arg5) (arr m c main_arg6) (arr m c main_arg7) (arr m c main_arg8) (arr m c main_arg9) :=
  (keep5 m ρ c main_v21 (by decide)).trans (w4_v21 m ρ c)
theorem w5_arg2 : W5 m ρ c (Proc.devRef .tc main_arg2) = arr m c main_arg2 :=
  (keep5 m ρ c main_arg2 (by decide)).trans (w4_arg2 m ρ c)
theorem w5_arg3 : W5 m ρ c (Proc.devRef .tc main_arg3) = arr m c main_arg3 :=
  (keep5 m ρ c main_arg3 (by decide)).trans (w4_arg3 m ρ c)
theorem w5_arg12 : W5 m ρ c (Proc.devRef .tc main_arg12) = arr m c main_arg12 :=
  (keep5 m ρ c main_arg12 (by decide)).trans (w4_arg12 m ρ c)
theorem w5_arg13 : W5 m ρ c (Proc.devRef .tc main_arg13) = arr m c main_arg13 :=
  (keep5 m ρ c main_arg13 (by decide)).trans (w4_arg13 m ρ c)
theorem w5_arg14 : W5 m ρ c (Proc.devRef .tc main_arg14) = arr m c main_arg14 :=
  (keep5 m ρ c main_arg14 (by decide)).trans (w4_arg14 m ρ c)
theorem w5_arg15 : W5 m ρ c (Proc.devRef .tc main_arg15) = arr m c main_arg15 :=
  (keep5 m ρ c main_arg15 (by decide)).trans (w4_arg15 m ρ c)
theorem w5_arg16 : W5 m ρ c (Proc.devRef .tc main_arg16) = arr m c main_arg16 :=
  (keep5 m ρ c main_arg16 (by decide)).trans (w4_arg16 m ρ c)
theorem w5_arg17 : W5 m ρ c (Proc.devRef .tc main_arg17) = arr m c main_arg17 :=
  (keep5 m ρ c main_arg17 (by decide)).trans (w4_arg17 m ρ c)

/-! ## Region 2's exit: the second layer's messages -/

theorem w6_v31 : W6 m ρ c (Proc.devRef .tc main_v31) = val_main_v46 (F := Ideal) (arr m c main_arg0) (arr m c main_arg1) (arr m c main_arg3) (arr m c main_arg4) (arr m c main_arg5) (arr m c main_arg6) (arr m c main_arg7) (arr m c main_arg8) (arr m c main_arg9) (arr m c main_arg10) (arr m c main_arg11) := by
  have e : (dat2 (V5 m ρ) c).arrAt 4 cfg2.N = edgeStage (W5 m ρ c (Proc.devRef .tc main_arg3) : S1600000x16.Idx → EReal) (W5 m ρ c (Proc.devRef .tc main_v28) : S1600000x64.Idx → EReal)
      (W5 m ρ c (Proc.devRef .tc main_v29) : S16x64.Idx → EReal) (W5 m ρ c (Proc.devRef .tc main_v30) : S1x64.Idx → EReal) := Edge2.final (V5 m ρ) c
  rw [w5_arg3 m ρ c, w5_v28 m ρ c, w5_v29 m ρ c, w5_v30 m ρ c] at e
  exact (W6_arr m ρ c 4).trans (e.trans (Cert.ReferenceIdeal.Stages.edge2 _ _ _ _ _ _ _ _ _ _ _).symm)
theorem w6_v3 : W6 m ρ c (Proc.devRef .tc main_v3) = val_main_v3 (F := Ideal) (arr m c main_arg1) :=
  (keep6 m ρ c main_v3 (by decide)).trans (w5_v3 m ρ c)
theorem w6_v21 : W6 m ρ c (Proc.devRef .tc main_v21) = val_main_v32 (F := Ideal) (arr m c main_arg0) (arr m c main_arg1) (arr m c main_arg3) (arr m c main_arg4) (arr m c main_arg5) (arr m c main_arg6) (arr m c main_arg7) (arr m c main_arg8) (arr m c main_arg9) :=
  (keep6 m ρ c main_v21 (by decide)).trans (w5_v21 m ρ c)
theorem w6_arg2 : W6 m ρ c (Proc.devRef .tc main_arg2) = arr m c main_arg2 :=
  (keep6 m ρ c main_arg2 (by decide)).trans (w5_arg2 m ρ c)
theorem w6_arg12 : W6 m ρ c (Proc.devRef .tc main_arg12) = arr m c main_arg12 :=
  (keep6 m ρ c main_arg12 (by decide)).trans (w5_arg12 m ρ c)
theorem w6_arg13 : W6 m ρ c (Proc.devRef .tc main_arg13) = arr m c main_arg13 :=
  (keep6 m ρ c main_arg13 (by decide)).trans (w5_arg13 m ρ c)
theorem w6_arg14 : W6 m ρ c (Proc.devRef .tc main_arg14) = arr m c main_arg14 :=
  (keep6 m ρ c main_arg14 (by decide)).trans (w5_arg14 m ρ c)
theorem w6_arg15 : W6 m ρ c (Proc.devRef .tc main_arg15) = arr m c main_arg15 :=
  (keep6 m ρ c main_arg15 (by decide)).trans (w5_arg15 m ρ c)
theorem w6_arg16 : W6 m ρ c (Proc.devRef .tc main_arg16) = arr m c main_arg16 :=
  (keep6 m ρ c main_arg16 (by decide)).trans (w5_arg16 m ρ c)
theorem w6_arg17 : W6 m ρ c (Proc.devRef .tc main_arg17) = arr m c main_arg17 :=
  (keep6 m ρ c main_arg17 (by decide)).trans (w5_arg17 m ρ c)

/-! ## Region 3's entry: the second layer's messages scatter-added; the second node stage's parameters -/

theorem w7_v34 : W7 m ρ c (Proc.devRef .tc main_v34) = val_main_v49 (F := Ideal) (arr m c main_arg0) (arr m c main_arg1) (arr m c main_arg3) (arr m c main_arg4) (arr m c main_arg5) (arr m c main_arg6) (arr m c main_arg7) (arr m c main_arg8) (arr m c main_arg9) (arr m c main_arg10) (arr m c main_arg11) := by
  show StableHlo.after hostOps3 (W6 m ρ c) (Proc.devRef .tc main_v34) = _
  after_results
  rw [w6_v31 m ρ c, w6_v3 m ρ c]
  rfl
theorem w7_v35 : W7 m ρ c (Proc.devRef .tc main_v35) = val_main_v51 (F := Ideal) (arr m c main_arg12) := by
  show StableHlo.after hostOps3 (W6 m ρ c) (Proc.devRef .tc main_v35) = _
  after_results
  rw [w6_arg12 m ρ c]
  rfl
theorem w7_v36 : W7 m ρ c (Proc.devRef .tc main_v36) = val_main_v57 (F := Ideal) (arr m c main_arg14) := by
  show StableHlo.after hostOps3 (W6 m ρ c) (Proc.devRef .tc main_v36) = _
  after_results
  rw [w6_arg14 m ρ c]
  rfl
theorem w7_v37 : W7 m ρ c (Proc.devRef .tc main_v37) = val_main_v53 (F := Ideal) (arr m c main_arg13) := by
  show StableHlo.after hostOps3 (W6 m ρ c) (Proc.devRef .tc main_v37) = _
  after_results
  rw [w6_arg13 m ρ c]
  exact biasRow _ _ _
theorem w7_v38 : W7 m ρ c (Proc.devRef .tc main_v38) = val_main_v59 (F := Ideal) (arr m c main_arg15) := by
  show StableHlo.after hostOps3 (W6 m ρ c) (Proc.devRef .tc main_v38) = _
  after_results
  rw [w6_arg15 m ρ c]
  exact biasRow _ _ _
theorem w7_v21 : W7 m ρ c (Proc.devRef .tc main_v21) = val_main_v32 (F := Ideal) (arr m c main_arg0) (arr m c main_arg1) (arr m c main_arg3) (arr m c main_arg4) (arr m c main_arg5) (arr m c main_arg6) (arr m c main_arg7) (arr m c main_arg8) (arr m c main_arg9) :=
  (keep7 m ρ c main_v21 (by decide)).trans (w6_v21 m ρ c)
theorem w7_arg2 : W7 m ρ c (Proc.devRef .tc main_arg2) = arr m c main_arg2 :=
  (keep7 m ρ c main_arg2 (by decide)).trans (w6_arg2 m ρ c)
theorem w7_arg16 : W7 m ρ c (Proc.devRef .tc main_arg16) = arr m c main_arg16 :=
  (keep7 m ρ c main_arg16 (by decide)).trans (w6_arg16 m ρ c)
theorem w7_arg17 : W7 m ρ c (Proc.devRef .tc main_arg17) = arr m c main_arg17 :=
  (keep7 m ρ c main_arg17 (by decide)).trans (w6_arg17 m ρ c)

/-! ## Region 3's exit: the second layer's node features -/

theorem w8_v39 : W8 m ρ c (Proc.devRef .tc main_v39) = val_main_v61 (F := Ideal) (arr m c main_arg0) (arr m c main_arg1) (arr m c main_arg3) (arr m c main_arg4) (arr m c main_arg5) (arr m c main_arg6) (arr m c main_arg7) (arr m c main_arg8) (arr m c main_arg9) (arr m c main_arg10) (arr m c main_arg11) (arr m c main_arg12) (arr m c main_arg13) (arr m c main_arg14) (arr m c main_arg15) := by
  have e : (dat3 (V7 m ρ) c).arrAt 6 cfg3.N = nodeStage (W7 m ρ c (Proc.devRef .tc main_v21) : S100000x64.Idx → EReal) (W7 m ρ c (Proc.devRef .tc main_v34) : S100000x64.Idx → EReal)
      (W7 m ρ c (Proc.devRef .tc main_v35) : S64x64.Idx → EReal) (W7 m ρ c (Proc.devRef .tc main_v37) : S1x64.Idx → EReal)
      (W7 m ρ c (Proc.devRef .tc main_v36) : S64x64.Idx → EReal) (W7 m ρ c (Proc.devRef .tc main_v38) : S1x64.Idx → EReal) := Node3.final (V7 m ρ) c
  rw [w7_v21 m ρ c, w7_v34 m ρ c, w7_v35 m ρ c, w7_v37 m ρ c, w7_v36 m ρ c, w7_v38 m ρ c] at e
  exact (W8_arr m ρ c 6).trans (e.trans (Cert.ReferenceIdeal.Stages.node2 _ _ _ _ _ _ _ _ _ _ _ _ _ _ _).symm)
theorem w8_arg2 : W8 m ρ c (Proc.devRef .tc main_arg2) = arr m c main_arg2 :=
  (keep8 m ρ c main_arg2 (by decide)).trans (w7_arg2 m ρ c)
theorem w8_arg16 : W8 m ρ c (Proc.devRef .tc main_arg16) = arr m c main_arg16 :=
  (keep8 m ρ c main_arg16 (by decide)).trans (w7_arg16 m ρ c)
theorem w8_arg17 : W8 m ρ c (Proc.devRef .tc main_arg17) = arr m c main_arg17 :=
  (keep8 m ρ c main_arg17 (by decide)).trans (w7_arg17 m ρ c)

end Cert.KernelIdeal.Walk

end
-- ==== Proof.Result.lean ====
/-
  The idealized kernel's result array at the return: the last host stretch — the per-graph sums and counts of the
  last layer's node features, their quotient, and the final projection — applied to the buffers region 3 leaves.
  Those buffers hold the reference's values of the launch arrays (the boundary walk), and the stretch is the
  reference's own last lines, so the result is the very term the reference's run ends at.
-/
import proofs.«130035_j79439715107083_2_alg».proof.Proof.Walk

set_option maxRecDepth 16384

noncomputable section

namespace Cert.KernelIdeal.Walk

open Cert.KernelIdeal Cert.KernelIdeal.Gen Cert.Gine
open Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 4000000 in
/-- THE RESULT: the kernel's result array holds the very term the reference's run ends at, of the launch arrays. -/
theorem w9_v56 : W9 m ρ c (Proc.devRef .tc main_v56) = val_main_v78 (F := Ideal) (arr m c main_arg0) (arr m c main_arg1) (arr m c main_arg2) (arr m c main_arg3) (arr m c main_arg4) (arr m c main_arg5) (arr m c main_arg6) (arr m c main_arg7) (arr m c main_arg8) (arr m c main_arg9) (arr m c main_arg10) (arr m c main_arg11) (arr m c main_arg12) (arr m c main_arg13) (arr m c main_arg14) (arr m c main_arg15) (arr m c main_arg16) (arr m c main_arg17) := by
  show StableHlo.after hostOps4 (W8 m ρ c) (Proc.devRef .tc main_v56) = _
  after_results_simp
  rw [w8_v39 m ρ c, w8_arg2 m ρ c, w8_arg16 m ρ c, w8_arg17 m ρ c]
  rfl

end Cert.KernelIdeal.Walk

end
-- ==== Proof.lean ====
/-
  The certificate of a two-layer edge-conditioned graph network with mean pooling: the Pallas program (four pipelined
  regions among host operations) against its plain jnp reference.

  Both programs compute, per layer, messages  max(x[src] + (edge_attr · Wᵗ + b), 0)  on the 1.6 million edges, their
  scatter-added sums by destination on the 100000 nodes, and the node update  max((x + agg) · W1ᵗ + b1, 0) · W2ᵗ + b2;
  then the per-graph mean of the last layer's features and one final projection. The kernel program does the two dense
  stages of each layer in regions, tiled by rows (8000 edges, 5000 nodes per block), with the weights cast to a narrower
  float format before the matrix unit; the reference does them as whole-array host operations. At the ideal instance a
  change of float format is the identity and a product into a zero accumulator is the plain sum, so a region's output
  array is the same stage of its input arrays that the reference computes at once (a stage's entry depends on one row of
  its row-indexed operands, and the blocks tile the rows). The gathers, the scatter-adds and the pooling tail are the
  same host operations in both programs, applied to equal values; they are never opened. No law of arithmetic on the
  extended reals is used, so the precondition is never opened either.

  The frames of the two kernel programs are the generated launch over their nine segments; the reference's frame is its
  generated run with the result dropped. The ideal pass rewrote nothing, so the idealization claim is trivial.
-/
import proofs.«130035_j79439715107083_2_alg».proof.Defs
import proofs.«130035_j79439715107083_2_alg».proof.Proof.Gen.Kernel
import proofs.«130035_j79439715107083_2_alg».proof.Proof.KernelFrameP
import proofs.«130035_j79439715107083_2_alg».proof.Proof.Gen.KernelIdeal
import proofs.«130035_j79439715107083_2_alg».proof.Proof.KernelIdealFrameP
import proofs.«130035_j79439715107083_2_alg».proof.Proof.Gen.ReferenceIdeal
import proofs.«130035_j79439715107083_2_alg».proof.Proof.Gen.Pre_finite_inputs
import proofs.«130035_j79439715107083_2_alg».proof.Proof.Gen.ReferenceIdeal.Run
import proofs.«130035_j79439715107083_2_alg».proof.Proof.Gen.ReferenceIdeal.Read
import proofs.«130035_j79439715107083_2_alg».proof.Proof.NamedRun
import proofs.«130035_j79439715107083_2_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the eighteen arguments, both idealized programs end, with the same result: the
    reference's run ends at its composed term of the arguments, and the kernel's result array ends at that same term
    of its own launch arrays. -/
theorem algebraic : Cert.algebraic_KernelIdeal_ReferenceIdeal := by
  intro m ρ m' ρ' _ hagree
  refine ⟨fun c => Cert.KernelIdeal.Gen.W9 m ρ c (Proc.devRef .tc Cert.KernelIdeal.main_v56),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  rw [Cert.ReferenceIdeal.Read.val_main_v78_eq]
  refine Eq.trans ?_ (Cert.KernelIdeal.Walk.w9_v56 m ρ c).symm
  rw [e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
